-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x224x224 : Shape := ⟨4, ![4, 256, 224, 224]⟩
abbrev S768x256 : Shape := ⟨2, ![768, 256]⟩
abbrev S256x256 : Shape := ⟨2, ![256, 256]⟩
abbrev S256 : Shape := ⟨1, ![256]⟩
abbrev S_ : Shape := ⟨0, ![]⟩

class Facts : Prop where
  bcast_S_S4x256x224x224 : S_.BroadcastsInDim S4x256x224x224 (![] : Fin 0 → Fin S4x256x224x224.rank)
  reducesTo_S4x256x224x224_S_d0_1_2_3 : S4x256x224x224.ReducesTo [0, 1, 2, 3] S_
  h_S_ : 0 < S_.numel
  bcast_S_S768x256 : S_.BroadcastsInDim S768x256 (![] : Fin 0 → Fin S768x256.rank)
  reducesTo_S768x256_S_d0_1 : S768x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4x256x224x224 .f32) (main_arg1 : FVec F S768x256 .f32) (main_arg2 : FVec F S256x256 .f32) (main_arg3 : FVec F S256 .f32) : IVec S_ 1 :=
  let main_v0 : FVec F S4x256x224x224 .f32 := Host.absf main_arg0
  let main_cst : FVec F S_ .f32 := constant S_ .f32 0x7F800000#32
  let main_v1 : FVec F S4x256x224x224 .f32 := broadcastInDim S4x256x224x224 ![] bcast_S_S4x256x224x224 main_cst
  let main_v2 : IVec S4x256x224x224 1 := cmpf .olt main_v0 main_v1
  let main_c : IVec S_ 1 := constantI S_ 1 1#1
  let main_v3 : IVec S_ 1 := (fun x v => Host.reduce IntOp.andi x v reducesTo_S4x256x224x224_S_d0_1_2_3 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4x256x224x224 : Shape := ⟨4, ![4, 256, 224, 224]⟩
abbrev S768x256 : Shape := ⟨2, ![768, 256]⟩
abbrev S256x256 : Shape := ⟨2, ![256, 256]⟩
abbrev S256 : Shape := ⟨1, ![256]⟩
abbrev S1x256x8x224 : Shape := ⟨4, ![1, 256, 8, 224]⟩
abbrev S256x8x224 : Shape := ⟨3, ![256, 8, 224]⟩
abbrev S8x256x224 : Shape := ⟨3, ![8, 256, 224]⟩
abbrev S8x224x256 : Shape := ⟨3, ![8, 224, 256]⟩
abbrev S8x28x8x256 : Shape := ⟨4, ![8, 28, 8, 256]⟩
abbrev S28x8x8x256 : Shape := ⟨4, ![28, 8, 8, 256]⟩
abbrev S1792x256 : Shape := ⟨2, ![1792, 256]⟩
abbrev S28x64x256 : Shape := ⟨3, ![28, 64, 256]⟩
abbrev S28x64x32 : Shape := ⟨3, ![28, 64, 32]⟩
abbrev S28x64x64 : Shape := ⟨3, ![28, 64, 64]⟩
abbrev S28x64 : Shape := ⟨2, ![28, 64]⟩
abbrev S28x64x1 : Shape := ⟨3, ![28, 64, 1]⟩
abbrev S1x256 : Shape := ⟨2, ![1, 256]⟩

abbrev nBuf : Space → Nat
  | .hbm => 16
  | .vmem => 9
  | .smem => 0
  | _ => 0

abbrev bufTy : (tb : Table) → Fin (tcTables nBuf tb) → BufTy
  | .hbm, ⟨0, _⟩ => ⟨S4x256x224x224, .f32⟩
  | .hbm, ⟨1, _⟩ => ⟨S768x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256x256, .bf16⟩
  | .hbm, ⟨7, _⟩ => ⟨S256x256, .f32⟩
  | .hbm, ⟨8, _⟩ => ⟨S256x256, .f32⟩
  | .hbm, ⟨9, _⟩ => ⟨S256x256, .bf16⟩
  | .hbm, ⟨10, _⟩ => ⟨S256x256, .f32⟩
  | .hbm, ⟨11, _⟩ => ⟨S256x256, .f32⟩
  | .hbm, ⟨12, _⟩ => ⟨S256x256, .bf16⟩
  | .hbm, ⟨13, _⟩ => ⟨S256x256, .f32⟩
  | .hbm, ⟨14, _⟩ => ⟨S256x256, .bf16⟩
  | .hbm, ⟨15, _⟩ => ⟨S4x256x224x224, .f32⟩
  | .local _ .vmem, ⟨0, _⟩ => ⟨S1x256x8x224, .f32⟩
  | .local _ .vmem, ⟨1, _⟩ => ⟨S1x256x8x224, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256, .f32⟩
  | .local _ .vmem, ⟨7, _⟩ => ⟨S1x256x8x224, .f32⟩
  | .local _ .vmem, ⟨8, _⟩ => ⟨S1x256x8x224, .f32⟩
  | _, _ => ⟨S4x256x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 28], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x8x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x8x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S768x256_S256x256_0_0 : S768x256.Slices ![0, 0] S256x256
  transposes_S256x256_S256x256_1_0 : S256x256.Transposes [1, 0] S256x256
  bitsLt_bf16_f32 : FTy.bits .bf16 < FTy.bits .f32
  slices_S768x256_S256x256_256_0 : S768x256.Slices ![256, 0] S256x256
  slices_S768x256_S256x256_512_0 : S768x256.Slices ![512, 0] S256x256
  inb_S1x256x8x224_S1x256x8x224_0_0_0_0 : ∀ a, (![0, 0, 0, 0] : Fin 4 → Nat) a + S1x256x8x224.size a ≤ S1x256x8x224.size a
  h_S1x256x8x224 : 0 < S1x256x8x224.numel
  shapeCasts_S1x256x8x224_S256x8x224 : S1x256x8x224.ShapeCasts S256x8x224
  transposes_S256x8x224_p1_0_2_S8x256x224 : S256x8x224.Transposes [1, 0, 2] S8x256x224
  transposes_S8x256x224_p0_2_1_S8x224x256 : S8x256x224.Transposes [0, 2, 1] S8x224x256
  shapeCasts_S8x224x256_S8x28x8x256 : S8x224x256.ShapeCasts S8x28x8x256
  transposes_S8x28x8x256_p1_0_2_3_S28x8x8x256 : S8x28x8x256.Transposes [1, 0, 2, 3] S28x8x8x256
  shapeCasts_S28x8x8x256_S1792x256 : S28x8x8x256.ShapeCasts S1792x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S1792x256_S28x64x256 : S1792x256.ShapeCasts S28x64x256
  slices_S28x64x256_o0_0_0_S28x64x32 : S28x64x256.Slices ![0, 0, 0] S28x64x32
  reduces_S28x64x64_S28x64 : S28x64x64.Reduces [2] S28x64
  shapeCasts_S28x64_S28x64x1 : S28x64.ShapeCasts S28x64x1
  broadcasts_S28x64x1_S28x64x64 : S28x64x1.Broadcasts S28x64x64
  slices_S28x64x256_o0_0_32_S28x64x32 : S28x64x256.Slices ![0, 0, 32] S28x64x32
  slices_S28x64x256_o0_0_64_S28x64x32 : S28x64x256.Slices ![0, 0, 64] S28x64x32
  slices_S28x64x256_o0_0_96_S28x64x32 : S28x64x256.Slices ![0, 0, 96] S28x64x32
  slices_S28x64x256_o0_0_128_S28x64x32 : S28x64x256.Slices ![0, 0, 128] S28x64x32
  slices_S28x64x256_o0_0_160_S28x64x32 : S28x64x256.Slices ![0, 0, 160] S28x64x32
  slices_S28x64x256_o0_0_192_S28x64x32 : S28x64x256.Slices ![0, 0, 192] S28x64x32
  slices_S28x64x256_o0_0_224_S28x64x32 : S28x64x256.Slices ![0, 0, 224] S28x64x32
  concatenates_S28x64x32_S28x64x32_S28x64x32_S28x64x32_S28x64x32_S28x64x32_S28x64x32_S28x64x32_S28x64x256_d2 : Shape.Concatenates [S28x64x32, S28x64x32, S28x64x32, S28x64x32, S28x64x32, S28x64x32, S28x64x32, S28x64x32] S28x64x256 2
  shapeCasts_S28x64x256_S1792x256 : S28x64x256.ShapeCasts S1792x256
  inb_S256_S256_0 : ∀ a, (![0] : Fin 1 → Nat) a + S256.size a ≤ S256.size a
  h_S256 : 0 < S256.numel
  shapeCasts_S256_S1x256 : S256.ShapeCasts S1x256
  broadcasts_S1x256_S1792x256 : S1x256.Broadcasts S1792x256
  shapeCasts_S1792x256_S28x8x8x256 : S1792x256.ShapeCasts S28x8x8x256
  transposes_S28x8x8x256_p1_0_2_3_S8x28x8x256 : S28x8x8x256.Transposes [1, 0, 2, 3] S8x28x8x256
  shapeCasts_S8x28x8x256_S8x224x256 : S8x28x8x256.ShapeCasts S8x224x256
  transposes_S8x224x256_p0_2_1_S8x256x224 : S8x224x256.Transposes [0, 2, 1] S8x256x224
  transposes_S8x256x224_p1_0_2_S256x8x224 : S8x256x224.Transposes [1, 0, 2] S256x8x224
  shapeCasts_S256x8x224_S1x256x8x224 : S256x8x224.ShapeCasts S1x256x8x224
  dot_S1792x256_S256x256_S1792x256_1_0_0_1_n_n_wf : DotDims.WF S1792x256 S256x256 S1792x256 [1] [0] [0] [1] [] []
  dot_S28x64x32_S28x64x32_S28x64x64_2_2_1_1_0_0_wf : DotDims.WF S28x64x32 S28x64x32 S28x64x64 [2] [2] [1] [1] [0] [0]
  dot_S28x64x64_S28x64x32_S28x64x32_2_1_1_2_0_0_wf : DotDims.WF S28x64x64 S28x64x32 S28x64x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8x224.size a ≤ S4x256x224x224.size a
  hwx0_0 : ∀ i : grid0.Coords, EltTy.bits .f32 = 32 ∨ (Rect.block (s := S4x256x224x224) S1x256x8x224.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x8x224.size a ≤ S4x256x224x224.size a
  hwx0_6 : ∀ i : grid0.Coords, EltTy.bits .f32 = 32 ∨ (Rect.block (s := S4x256x224x224) S1x256x8x224.size (cc0_transform_6 i) (hinb0_6 i)).WholeWords (EltTy.packing .f32)

variable [Facts₀]

def dot_S1792x256_S256x256_S1792x256_1_0_0_1_n_n : DotDims S1792x256 S256x256 S1792x256 where
  lhsContracting := [1]
  rhsContracting := [0]
  lhsNonContracting := [0]
  rhsNonContracting := [1]
  lhsBatch := []
  rhsBatch := []
  wf := dot_S1792x256_S256x256_S1792x256_1_0_0_1_n_n_wf
def dot_S28x64x32_S28x64x32_S28x64x64_2_2_1_1_0_0 : DotDims S28x64x32 S28x64x32 S28x64x64 where
  lhsContracting := [2]
  rhsContracting := [2]
  lhsNonContracting := [1]
  rhsNonContracting := [1]
  lhsBatch := [0]
  rhsBatch := [0]
  wf := dot_S28x64x32_S28x64x32_S28x64x64_2_2_1_1_0_0_wf
def dot_S28x64x64_S28x64x32_S28x64x32_2_1_1_2_0_0 : DotDims S28x64x64 S28x64x32 S28x64x32 where
  lhsContracting := [2]
  rhsContracting := [1]
  lhsNonContracting := [1]
  rhsNonContracting := [2]
  lhsBatch := [0]
  rhsBatch := [0]
  wf := dot_S28x64x64_S28x64x32_S28x64x32_2_1_1_2_0_0_wf

abbrev win0_0 : Pipeline.Window sig grid0 :=
  Pipeline.Window.ofSpec (Memref.whole main_arg0) S1x256x8x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x256x8x224.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x256x224x224 : Shape := ⟨4, ![4, 256, 224, 224]⟩
abbrev S768x256 : Shape := ⟨2, ![768, 256]⟩
abbrev S256x256 : Shape := ⟨2, ![256, 256]⟩
abbrev S256 : Shape := ⟨1, ![256]⟩
abbrev S4x256x28x8x28x8 : Shape := ⟨6, ![4, 256, 28, 8, 28, 8]⟩
abbrev S4x28x28x8x8x256 : Shape := ⟨6, ![4, 28, 28, 8, 8, 256]⟩
abbrev S3136x64x256 : Shape := ⟨3, ![3136, 64, 256]⟩
abbrev S3136x64x768 : Shape := ⟨3, ![3136, 64, 768]⟩
abbrev S3136x64x8x32 : Shape := ⟨4, ![3136, 64, 8, 32]⟩
abbrev S3136x8x64x32 : Shape := ⟨4, ![3136, 8, 64, 32]⟩
abbrev S3136x8x64x64 : Shape := ⟨4, ![3136, 8, 64, 64]⟩
abbrev S_ : Shape := ⟨0, ![]⟩
abbrev S3136x8x64 : Shape := ⟨3, ![3136, 8, 64]⟩
abbrev S3136x8x64x1 : Shape := ⟨4, ![3136, 8, 64, 1]⟩
abbrev S1x1x256 : Shape := ⟨3, ![1, 1, 256]⟩

abbrev nBuf : Space → Nat
  | .hbm => 45
  | .vmem => 0
  | .smem => 0
  | _ => 0

abbrev bufTy : (tb : Table) → Fin (tcTables nBuf tb) → BufTy
  | .hbm, ⟨0, _⟩ => ⟨S4x256x224x224, .f32⟩
  | .hbm, ⟨1, _⟩ => ⟨S768x256, .f32⟩
  | .hbm, ⟨2, _⟩ => ⟨S256x256, .f32⟩
  | .hbm, ⟨3, _⟩ => ⟨S256, .f32⟩
  | .hbm, ⟨4, _⟩ => ⟨S4x256x28x8x28x8, .f32⟩
  | .hbm, ⟨5, _⟩ => ⟨S4x28x28x8x8x256, .f32⟩
  | .hbm, ⟨6, _⟩ => ⟨S3136x64x256, .f32⟩
  | .hbm, ⟨7, _⟩ => ⟨S3136x64x768, .f32⟩
  | .hbm, ⟨8, _⟩ => ⟨S3136x64x256, .f32⟩
  | .hbm, ⟨9, _⟩ => ⟨S3136x64x256, .f32⟩
  | .hbm, ⟨10, _⟩ => ⟨S3136x64x256, .f32⟩
  | .hbm, ⟨11, _⟩ => ⟨S3136x64x8x32, .f32⟩
  | .hbm, ⟨12, _⟩ => ⟨S3136x8x64x32, .f32⟩
  | .hbm, ⟨13, _⟩ => ⟨S3136x64x8x32, .f32⟩
  | .hbm, ⟨14, _⟩ => ⟨S3136x8x64x32, .f32⟩
  | .hbm, ⟨15, _⟩ => ⟨S3136x64x8x32, .f32⟩
  | .hbm, ⟨16, _⟩ => ⟨S3136x8x64x32, .f32⟩
  | .hbm, ⟨17, _⟩ => ⟨S3136x8x64x64, .f32⟩
  | .hbm, ⟨18, _⟩ => ⟨S_, .f32⟩
  | .hbm, ⟨19, _⟩ => ⟨S3136x8x64x64, .f32⟩
  | .hbm, ⟨20, _⟩ => ⟨S3136x8x64x64, .f32⟩
  | .hbm, ⟨21, _⟩ => ⟨S_, .f32⟩
  | .hbm, ⟨22, _⟩ => ⟨S3136x8x64, .f32⟩
  | .hbm, ⟨23, _⟩ => ⟨S_, .f32⟩
  | .hbm, ⟨24, _⟩ => ⟨S3136x8x64, .f32⟩
  | .hbm, ⟨25, _⟩ => ⟨S3136x8x64, .f32⟩
  | .hbm, ⟨26, _⟩ => ⟨S3136x8x64x1, .f32⟩
  | .hbm, ⟨27, _⟩ => ⟨S3136x8x64x64, .f32⟩
  | .hbm, ⟨28, _⟩ => ⟨S3136x8x64x64, .f32⟩
  | .hbm, ⟨29, _⟩ => ⟨S3136x8x64x64, .f32⟩
  | .hbm, ⟨30, _⟩ => ⟨S_, .f32⟩
  | .hbm, ⟨31, _⟩ => ⟨S3136x8x64, .f32⟩
  | .hbm, ⟨32, _⟩ => ⟨S3136x8x64x1, .f32⟩
  | .hbm, ⟨33, _⟩ => ⟨S3136x8x64x64, .f32⟩
  | .hbm, ⟨34, _⟩ => ⟨S3136x8x64x64, .f32⟩
  | .hbm, ⟨35, _⟩ => ⟨S3136x8x64x32, .f32⟩
  | .hbm, ⟨36, _⟩ => ⟨S3136x64x8x32, .f32⟩
  | .hbm, ⟨37, _⟩ => ⟨S3136x64x256, .f32⟩
  | .hbm, ⟨38, _⟩ => ⟨S3136x64x256, .f32⟩
  | .hbm, ⟨39, _⟩ => ⟨S1x1x256, .f32⟩
  | .hbm, ⟨40, _⟩ => ⟨S3136x64x256, .f32⟩
  | .hbm, ⟨41, _⟩ => ⟨S3136x64x256, .f32⟩
  | .hbm, ⟨42, _⟩ => ⟨S4x28x28x8x8x256, .f32⟩
  | .hbm, ⟨43, _⟩ => ⟨S4x256x28x8x28x8, .f32⟩
  | .hbm, ⟨44, _⟩ => ⟨S4x256x224x224, .f32⟩
  | _, _ => ⟨S4x256x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]

class Facts₀ : Prop where
  shapeCasts_S4x256x224x224_S4x256x28x8x28x8 : S4x256x224x224.ShapeCasts S4x256x28x8x28x8
  transposes_S4x256x28x8x28x8_S4x28x28x8x8x256_0_2_4_3_5_1 : S4x256x28x8x28x8.Transposes [0, 2, 4, 3, 5, 1] S4x28x28x8x8x256
  shapeCasts_S4x28x28x8x8x256_S3136x64x256 : S4x28x28x8x8x256.ShapeCasts S3136x64x256
  slices_S3136x64x768_S3136x64x256_0_0_0 : S3136x64x768.Slices ![0, 0, 0] S3136x64x256
  slices_S3136x64x768_S3136x64x256_0_0_256 : S3136x64x768.Slices ![0, 0, 256] S3136x64x256
  slices_S3136x64x768_S3136x64x256_0_0_512 : S3136x64x768.Slices ![0, 0, 512] S3136x64x256
  shapeCasts_S3136x64x256_S3136x64x8x32 : S3136x64x256.ShapeCasts S3136x64x8x32
  transposes_S3136x64x8x32_S3136x8x64x32_0_2_1_3 : S3136x64x8x32.Transposes [0, 2, 1, 3] S3136x8x64x32
  bcast_S_S3136x8x64x64 : S_.BroadcastsInDim S3136x8x64x64 (![] : Fin 0 → Fin S3136x8x64x64.rank)
  reducesTo_S3136x8x64x64_S3136x8x64_d3 : S3136x8x64x64.ReducesTo [3] S3136x8x64
  h_S_ : 0 < S_.numel
  bcast_S_S3136x8x64 : S_.BroadcastsInDim S3136x8x64 (![] : Fin 0 → Fin S3136x8x64.rank)
  bcast_S3136x8x64_S3136x8x64x1_0_1_2 : S3136x8x64.BroadcastsInDim S3136x8x64x1 (![0, 1, 2] : Fin 3 → Fin S3136x8x64x1.rank)
  bcast_S3136x8x64x1_S3136x8x64x64_0_1_2_3 : S3136x8x64x1.BroadcastsInDim S3136x8x64x64 (![0, 1, 2, 3] : Fin 4 → Fin S3136x8x64x64.rank)
  transposes_S3136x8x64x32_S3136x64x8x32_0_2_1_3 : S3136x8x64x32.Transposes [0, 2, 1, 3] S3136x64x8x32
  shapeCasts_S3136x64x8x32_S3136x64x256 : S3136x64x8x32.ShapeCasts S3136x64x256
  bcast_S256_S1x1x256_2 : S256.BroadcastsInDim S1x1x256 (![2] : Fin 1 → Fin S1x1x256.rank)
  bcast_S1x1x256_S3136x64x256_0_1_2 : S1x1x256.BroadcastsInDim S3136x64x256 (![0, 1, 2] : Fin 3 → Fin S3136x64x256.rank)
  shapeCasts_S3136x64x256_S4x28x28x8x8x256 : S3136x64x256.ShapeCasts S4x28x28x8x8x256
  transposes_S4x28x28x8x8x256_S4x256x28x8x28x8_0_5_1_3_2_4 : S4x28x28x8x8x256.Transposes [0, 5, 1, 3, 2, 4] S4x256x28x8x28x8
  shapeCasts_S4x256x28x8x28x8_S4x256x224x224 : S4x256x28x8x28x8.ShapeCasts S4x256x224x224
  dot_S3136x64x256_S768x256_S3136x64x768_2_1_01_0_n_n_wf : DotDims.WF S3136x64x256 S768x256 S3136x64x768 [2] [1] [0, 1] [0] [] []
  dot_S3136x8x64x32_S3136x8x64x32_S3136x8x64x64_3_3_2_2_01_01_wf : DotDims.WF S3136x8x64x32 S3136x8x64x32 S3136x8x64x64 [3] [3] [2] [2] [0, 1] [0, 1]
  dot_S3136x8x64x64_S3136x8x64x32_S3136x8x64x32_3_2_2_3_01_01_wf : DotDims.WF S3136x8x64x64 S3136x8x64x32 S3136x8x64x32 [3] [2] [2] [3] [0, 1] [0, 1]
  dot_S3136x64x256_S256x256_S3136x64x256_2_1_01_0_n_n_wf : DotDims.WF S3136x64x256 S256x256 S3136x64x256 [2] [1] [0, 1] [0] [] []

variable [Facts₀]

def dot_S3136x64x256_S768x256_S3136x64x768_2_1_01_0_n_n : DotDims S3136x64x256 S768x256 S3136x64x768 where
  lhsContracting := [2]
  rhsContracting := [1]
  lhsNonContracting := [0, 1]
  rhsNonContracting := [0]
  lhsBatch := []
  rhsBatch := []
  wf := dot_S3136x64x256_S768x256_S3136x64x768_2_1_01_0_n_n_wf
def dot_S3136x8x64x32_S3136x8x64x32_S3136x8x64x64_3_3_2_2_01_01 : DotDims S3136x8x64x32 S3136x8x64x32 S3136x8x64x64 where
  lhsContracting := [3]
  rhsContracting := [3]
  lhsNonContracting := [2]
  rhsNonContracting := [2]
  lhsBatch := [0, 1]
  rhsBatch := [0, 1]
  wf := dot_S3136x8x64x32_S3136x8x64x32_S3136x8x64x64_3_3_2_2_01_01_wf
def dot_S3136x8x64x64_S3136x8x64x32_S3136x8x64x32_3_2_2_3_01_01 : DotDims S3136x8x64x64 S3136x8x64x32 S3136x8x64x32 where
  lhsContracting := [3]
  rhsContracting := [2]
  lhsNonContracting := [2]
  rhsNonContracting := [3]
  lhsBatch := [0, 1]
  rhsBatch := [0, 1]
  wf := dot_S3136x8x64x64_S3136x8x64x32_S3136x8x64x32_3_2_2_3_01_01_wf
def dot_S3136x64x256_S256x256_S3136x64x256_2_1_01_0_n_n : DotDims S3136x64x256 S256x256 S3136x64x256 where
  lhsContracting := [2]
  rhsContracting := [1]
  lhsNonContracting := [0, 1]
  rhsNonContracting := [0]
  lhsBatch := []
  rhsBatch := []
  wf := dot_S3136x64x256_S256x256_S3136x64x256_2_1_01_0_n_n_wf

class Facts : Prop extends Facts₀ where

variable [Facts]
-- ==== Proof.Spec.lean ====
/-
  Window attention on 8×8 windows, index by index, on the extended reals.

  The input x : [4, 256, 224, 224] (batch, channel, row, column) is cut into 28 × 28 windows of 8 × 8 pixels per
  batch entry. Window (b, r, nw) holds the pixels of rows 8r … 8r+7 and columns 8nw … 8nw+7; its token t = 8·hi + wj
  is the pixel (8r + hi, 8nw + wj), a vector over the 256 channels. Inside one window, with W = w_qkv : [768, 256]:

    qkv t o      = ∑ c, tok t c · W o c                                  (o < 768: queries, keys, values)
    part p h t d = qkv t (256·p + 32·h + d)                              (p = 0, 1, 2; head h < 8; d < 32)
    score tq tk  = (∑ d, q tq d · k tk d) · σ                            (σ the scale word, 2^(-5/2) rounded)
    attn tq d    = ∑ tk, exp(score tq tk − M tq) / (∑ tk', exp(score tq tk' − M tq)) · v tk d,   M tq = max over tk
    outp t c     = ∑ c', attn_{head c' / 32} t (c' mod 32) · w_proj c c' + bias c

  and the result at (b, c, h, w) is outp of window (b, h / 8, w / 8) at token 8·(h mod 8) + w mod 8 and channel c.
  Both programs compute exactly these sums, in this grouping; they differ only in how the arrays are laid out on
  the way. No law beyond re-indexing a finite sum is used, so no finiteness of the inputs is needed.
-/
import Idealize.ShloMosaic.PureOps.Ideal
import Idealize.ShloMosaic.Lib.ValueIdx
import Mathlib.Data.Finset.Fold

noncomputable section

namespace Cert.WinAttn

open Idealize.ShloMosaic Idealize.ShloMosaic.ValueIdx

/-- The score scale both programs multiply by: the f32 nearest to 1/√32. The same word on both sides, never evaluated. -/
abbrev scaleW : EReal := Ideal.ofBits .f32 0x3E3504F3#32
/-- The word the row maximum starts from (f32's −∞ pattern). The same word on both sides, never evaluated. -/
abbrev floorW : EReal := Ideal.ofBits .f32 0xFF800000#32

/-- Token `t = 8·hi + wj` of window `(b, r, nw)` at channel `c`: the pixel `(8r + hi, 8nw + wj)`. -/
def tok (x : (⟨4, ![4, 256, 224, 224]⟩ : Shape).Idx → EReal) (b : Fin 4) (r nw : Fin 28) (t : Fin 64) (c : Fin 256) : EReal :=
  x (ix4 b c ⟨8 * r.val + t.val / 8, by have := r.isLt; have := t.isLt; omega⟩
    ⟨8 * nw.val + t.val % 8, by have := nw.isLt; have := t.isLt; omega⟩)

/-- The joint query/key/value projection of a token: row `o` of `w_qkv` against the token's channels. -/
def qkv (x : (⟨4, ![4, 256, 224, 224]⟩ : Shape).Idx → EReal) (w : (⟨2, ![768, 256]⟩ : Shape).Idx → EReal)
    (b : Fin 4) (r nw : Fin 28) (t : Fin 64) (o : Fin 768) : EReal :=
  ∑ c : Fin 256, tok x b r nw t c * w (ix2 o c)

/-- Head `h` of part `p` (0 queries, 1 keys, 2 values): the 32 output rows from `256·p + 32·h`. -/
def part (x : (⟨4, ![4, 256, 224, 224]⟩ : Shape).Idx → EReal) (w : (⟨2, ![768, 256]⟩ : Shape).Idx → EReal)
    (b : Fin 4) (r nw : Fin 28) (p : Fin 3) (h : Fin 8) (t : Fin 64) (d : Fin 32) : EReal :=
  qkv x w b r nw t ⟨256 * p.val + 32 * h.val + d.val, by have := p.isLt; have := h.isLt; have := d.isLt; omega⟩

/-- Scaled dot product of query token `tq` with key token `tk`. -/
def score (q k : Fin 64 → Fin 32 → EReal) (tq tk : Fin 64) : EReal := (∑ d : Fin 32, q tq d * k tk d) * scaleW

/-- The maximum of a row of scores, as the fold of `max` from the floor word. -/
def rowMax (s : Fin 64 → EReal) : EReal := (Finset.univ : Finset (Fin 64)).fold max floorW s

/-- The unnormalised softmax weight of key `tk` for query `tq`. -/
def expo (q k : Fin 64 → Fin 32 → EReal) (tq tk : Fin 64) : EReal :=
  Ideal.exp (score q k tq tk - rowMax (score q k tq))

/-- One head's attention output: the softmax-weighted sum of the value tokens. -/
def attn (q k v : Fin 64 → Fin 32 → EReal) (tq : Fin 64) (d : Fin 32) : EReal :=
  ∑ tk : Fin 64, Ideal.div (expo q k tq tk) (∑ tk' : Fin 64, expo q k tq tk') * v tk d

/-- Head `h` of window `(b, r, nw)`. -/
def ctx (x : (⟨4, ![4, 256, 224, 224]⟩ : Shape).Idx → EReal) (w : (⟨2, ![768, 256]⟩ : Shape).Idx → EReal)
    (b : Fin 4) (r nw : Fin 28) (h : Fin 8) (t : Fin 64) (d : Fin 32) : EReal :=
  attn (part x w b r nw 0 h) (part x w b r nw 1 h) (part x w b r nw 2 h) t d

/-- The heads side by side: channel `c'` is lane `c' mod 32` of head `c' / 32`. -/
def ctxAll (x : (⟨4, ![4, 256, 224, 224]⟩ : Shape).Idx → EReal) (w : (⟨2, ![768, 256]⟩ : Shape).Idx → EReal)
    (b : Fin 4) (r nw : Fin 28) (t : Fin 64) (c' : Fin 256) : EReal :=
  ctx x w b r nw ⟨c'.val / 32, by have := c'.isLt; omega⟩ t ⟨c'.val % 32, by omega⟩

/-- The output projection with its bias. -/
def outp (x : (⟨4, ![4, 256, 224, 224]⟩ : Shape).Idx → EReal) (w : (⟨2, ![768, 256]⟩ : Shape).Idx → EReal)
    (wp : (⟨2, ![256, 256]⟩ : Shape).Idx → EReal) (bias : (⟨1, ![256]⟩ : Shape).Idx → EReal)
    (b : Fin 4) (r nw : Fin 28) (t : Fin 64) (c : Fin 256) : EReal :=
  (∑ c' : Fin 256, ctxAll x w b r nw t c' * wp (ix2 c c')) + bias (ix1 c)

/-- The whole result: pixel `(h, w)` of batch entry `b` at channel `c` is token `8·(h mod 8) + w mod 8` of window `(b, h / 8, w / 8)`. -/
def G (x : (⟨4, ![4, 256, 224, 224]⟩ : Shape).Idx → EReal) (w : (⟨2, ![768, 256]⟩ : Shape).Idx → EReal)
    (wp : (⟨2, ![256, 256]⟩ : Shape).Idx → EReal) (bias : (⟨1, ![256]⟩ : Shape).Idx → EReal) :
    (⟨4, ![4, 256, 224, 224]⟩ : Shape).Idx → EReal := fun i =>
  outp x w wp bias (i 0)
    ⟨(i 2).val / 8, by have h : (i 2).val < 224 := (i 2).isLt; omega⟩
    ⟨(i 3).val / 8, by have h : (i 3).val < 224 := (i 3).isLt; omega⟩
    ⟨8 * ((i 2).val % 8) + (i 3).val % 8, by omega⟩ (i 1)

/-- `G` at an index given by window coordinates. -/
theorem G_apply (x : (⟨4, ![4, 256, 224, 224]⟩ : Shape).Idx → EReal) (w : (⟨2, ![768, 256]⟩ : Shape).Idx → EReal)
    (wp : (⟨2, ![256, 256]⟩ : Shape).Idx → EReal) (bias : (⟨1, ![256]⟩ : Shape).Idx → EReal)
    (b : Fin 4) (c : Fin 256) (r nw : Fin 28) (hi wj : Fin 8) (hh : Fin 224) (ww : Fin 224)
    (eh : hh.val = 8 * r.val + hi.val) (ew : ww.val = 8 * nw.val + wj.val) :
    G x w wp bias (ix4 b c hh ww) = outp x w wp bias b r nw ⟨8 * hi.val + wj.val, by have := hi.isLt; have := wj.isLt; omega⟩ c := by
  have := hi.isLt; have := wj.isLt
  unfold G
  congr 1
  · exact Fin.ext (by show hh.val / 8 = r.val; omega)
  · exact Fin.ext (by show ww.val / 8 = nw.val; omega)
  · exact Fin.ext (by show 8 * (hh.val % 8) + ww.val % 8 = 8 * hi.val + wj.val; omega)

/-- The maximum with the floor word in front changes nothing: the fold already starts from it. -/
theorem max_floor_rowMax (s : Fin 64 → EReal) : max floorW (rowMax s) = rowMax s := by
  unfold rowMax
  exact max_eq_right ((Finset.le_fold_max _).mpr (Or.inl le_rfl))

end Cert.WinAttn

end
-- ==== Proof.RefTokens.lean ====
/-
  The reference program cuts the image into windows by two reshapes around a transpose. Window (b, r, nw) becomes
  row (28·b + r)·28 + nw of a [3136, 64, 256] array whose second axis is the token 8·hi + wj and whose last axis is
  the channel. This file reads that array: its element is the pixel the specification calls tok.
-/
import proofs.«143008_j49546742726934_2_alg».proof.Proof.Gen.ReferenceIdeal.Read
import proofs.«143008_j49546742726934_2_alg».proof.Proof.Spec
import Idealize.ShloMosaic.Lib.ValueIdxRank6

noncomputable section

namespace Cert.WinAttn.Ref

open Idealize.ShloMosaic Idealize.ShloMosaic.ValueIdx Cert.ReferenceIdeal Cert.ReferenceIdeal.Read

/-- The position of window `(b, r, nw)` among the 3136 windows: batch-major, then window row, then window column. -/
def win (b : Fin 4) (r nw : Fin 28) : Fin 3136 :=
  ⟨(b.val * 28 + r.val) * 28 + nw.val, by have := b.isLt; have := r.isLt; have := nw.isLt; omega⟩

/-- The windowed array at window `(b, r, nw)`, token `t`, channel `c` is the pixel `tok` names: both reshapes keep
    the row-major position, and the transpose between them moves the channel axis last. -/
theorem tokens_apply (x0 : (⟨S4x256x224x224, .f32⟩ : BufTy).Contents (Elt Ideal)) (b : Fin 4) (r nw : Fin 28) (t : Fin 64) (c : Fin 256) :
    val_main_v2 (F := Ideal) x0 (ix3 (win b r nw) t c) = tok x0 b r nw t c := by
  have ht := t.isLt; have hb := b.isLt; have hr := r.isLt; have hnw := nw.isLt; have hc := c.isLt
  unfold val_main_v2
  refine (shapeCast_apply _ _ _ (ix6 b r nw (⟨t.val / 8, by omega⟩ : Fin 8) (⟨t.val % 8, by omega⟩ : Fin 8) c) ?_).trans ?_
  · rw [Shape.rowMajor_val_six, Shape.rowMajor_val_three]
    show ((((b.val * 28 + r.val) * 28 + nw.val) * 8 + t.val / 8) * 8 + t.val % 8) * 256 + c.val
      = (((b.val * 28 + r.val) * 28 + nw.val) * 64 + t.val) * 256 + c.val
    omega
  · rw [val_main_v1_apply]
    unfold val_main_v0
    refine (shapeCast_apply _ _ _ (ix4 b c (⟨8 * r.val + t.val / 8, by omega⟩ : Fin 224) (⟨8 * nw.val + t.val % 8, by omega⟩ : Fin 224)) ?_).trans ?_
    · rw [Shape.rowMajor_val_four, Shape.rowMajor_val_six]
      show ((b.val * 256 + c.val) * 224 + (8 * r.val + t.val / 8)) * 224 + (8 * nw.val + t.val % 8)
        = ((((b.val * 256 + c.val) * 28 + r.val) * 8 + t.val / 8) * 28 + nw.val) * 8 + t.val % 8
      omega
    · rfl

/-- The joint projection: the contraction over the channel axis is the specification's sum, term by term. -/
theorem qkv_apply (x0 : (⟨S4x256x224x224, .f32⟩ : BufTy).Contents (Elt Ideal)) (x1 : (⟨S768x256, .f32⟩ : BufTy).Contents (Elt Ideal))
    (b : Fin 4) (r nw : Fin 28) (t : Fin 64) (o : Fin 768) :
    val_main_v3 (F := Ideal) x0 x1 (ix3 (win b r nw) t o) = qkv x0 x1 b r nw t o := by
  rw [val_main_v3_apply]
  unfold qkv
  refine Finset.sum_congr rfl fun k _ => ?_
  have el : lidx_main_v3 (ix3 (win b r nw) t o) k = ix3 (win b r nw) t k :=
    funext fun a => match a with | ⟨0, _⟩ => rfl | ⟨1, _⟩ => rfl | ⟨2, _⟩ => rfl
  have er : ridx_main_v3 (ix3 (win b r nw) t o) k = ix2 o k :=
    funext fun a => match a with | ⟨0, _⟩ => rfl | ⟨1, _⟩ => rfl
  rw [el, er, tokens_apply]

end Cert.WinAttn.Ref

end
-- ==== Proof.RefParts.lean ====
/-
  Queries, keys and values: the three 256-row slices of the joint projection, each cut into 8 heads of 32 lanes.
-/
import proofs.«143008_j49546742726934_2_alg».proof.Proof.Gen.ReferenceIdeal.Read
import proofs.«143008_j49546742726934_2_alg».proof.Proof.Spec
import proofs.«143008_j49546742726934_2_alg».proof.Proof.RefTokens

noncomputable section

namespace Cert.WinAttn.Ref

open Idealize.ShloMosaic Idealize.ShloMosaic.ValueIdx Cert.ReferenceIdeal Cert.ReferenceIdeal.Read

/-- The queries: the slice of the projection from row 0, cut into 8 heads of 32 lanes, head axis moved ahead of the token axis. -/
theorem queries_read (x0 : (⟨S4x256x224x224, .f32⟩ : BufTy).Contents (Elt Ideal)) (x1 : (⟨S768x256, .f32⟩ : BufTy).Contents (Elt Ideal))
    (N : Fin 3136) (h : Fin 8) (t : Fin 64) (d : Fin 32) :
    val_main_v8 (F := Ideal) x0 x1 (ix4 N h t d)
      = val_main_v3 (F := Ideal) x0 x1 (ix3 N t (⟨0 + 32 * h.val + d.val, by have := h.isLt; have := d.isLt; omega⟩ : Fin 768)) := by
  have hN := N.isLt; have hh := h.isLt; have ht := t.isLt; have hd := d.isLt
  rw [val_main_v8_apply, val_main_v7_apply, val_main_v4_apply]
  refine congrArg (val_main_v3 (F := Ideal) x0 x1) (funext fun a => ?_)
  match a with
  | ⟨0, _⟩ => exact Fin.ext (by show (((N.val * 64 + t.val) * 8 + h.val) * 32 + d.val) / 16384 = N.val; omega)
  | ⟨1, _⟩ => exact Fin.ext (by show (((N.val * 64 + t.val) * 8 + h.val) * 32 + d.val) / 256 % 64 = t.val; omega)
  | ⟨2, _⟩ => exact Fin.ext (by show (((N.val * 64 + t.val) * 8 + h.val) * 32 + d.val) % 256 = 0 + 32 * h.val + d.val; omega)

theorem queries_apply (x0 : (⟨S4x256x224x224, .f32⟩ : BufTy).Contents (Elt Ideal)) (x1 : (⟨S768x256, .f32⟩ : BufTy).Contents (Elt Ideal))
    (b : Fin 4) (r nw : Fin 28) (h : Fin 8) (t : Fin 64) (d : Fin 32) :
    val_main_v8 (F := Ideal) x0 x1 (ix4 (win b r nw) h t d) = part x0 x1 b r nw 0 h t d := by
  rw [queries_read, qkv_apply]
  unfold part
  exact congrArg (qkv x0 x1 b r nw t) (Fin.ext (by show 0 + 32 * h.val + d.val = 256 * 0 + 32 * h.val + d.val; omega))

/-- The keys: the slice of the projection from row 256, cut into 8 heads of 32 lanes, head axis moved ahead of the token axis. -/
theorem keys_read (x0 : (⟨S4x256x224x224, .f32⟩ : BufTy).Contents (Elt Ideal)) (x1 : (⟨S768x256, .f32⟩ : BufTy).Contents (Elt Ideal))
    (N : Fin 3136) (h : Fin 8) (t : Fin 64) (d : Fin 32) :
    val_main_v10 (F := Ideal) x0 x1 (ix4 N h t d)
      = val_main_v3 (F := Ideal) x0 x1 (ix3 N t (⟨256 + 32 * h.val + d.val, by have := h.isLt; have := d.isLt; omega⟩ : Fin 768)) := by
  have hN := N.isLt; have hh := h.isLt; have ht := t.isLt; have hd := d.isLt
  rw [val_main_v10_apply, val_main_v9_apply, val_main_v5_apply]
  refine congrArg (val_main_v3 (F := Ideal) x0 x1) (funext fun a => ?_)
  match a with
  | ⟨0, _⟩ => exact Fin.ext (by show (((N.val * 64 + t.val) * 8 + h.val) * 32 + d.val) / 16384 = N.val; omega)
  | ⟨1, _⟩ => exact Fin.ext (by show (((N.val * 64 + t.val) * 8 + h.val) * 32 + d.val) / 256 % 64 = t.val; omega)
  | ⟨2, _⟩ => exact Fin.ext (by show 256 + (((N.val * 64 + t.val) * 8 + h.val) * 32 + d.val) % 256 = 256 + 32 * h.val + d.val; omega)

theorem keys_apply (x0 : (⟨S4x256x224x224, .f32⟩ : BufTy).Contents (Elt Ideal)) (x1 : (⟨S768x256, .f32⟩ : BufTy).Contents (Elt Ideal))
    (b : Fin 4) (r nw : Fin 28) (h : Fin 8) (t : Fin 64) (d : Fin 32) :
    val_main_v10 (F := Ideal) x0 x1 (ix4 (win b r nw) h t d) = part x0 x1 b r nw 1 h t d := by
  rw [keys_read, qkv_apply]
  unfold part
  exact congrArg (qkv x0 x1 b r nw t) (Fin.ext (by show 256 + 32 * h.val + d.val = 256 * 1 + 32 * h.val + d.val; omega))

/-- The values: the slice of the projection from row 512, cut into 8 heads of 32 lanes, head axis moved ahead of the token axis. -/
theorem values_read (x0 : (⟨S4x256x224x224, .f32⟩ : BufTy).Contents (Elt Ideal)) (x1 : (⟨S768x256, .f32⟩ : BufTy).Contents (Elt Ideal))
    (N : Fin 3136) (h : Fin 8) (t : Fin 64) (d : Fin 32) :
    val_main_v12 (F := Ideal) x0 x1 (ix4 N h t d)
      = val_main_v3 (F := Ideal) x0 x1 (ix3 N t (⟨512 + 32 * h.val + d.val, by have := h.isLt; have := d.isLt; omega⟩ : Fin 768)) := by
  have hN := N.isLt; have hh := h.isLt; have ht := t.isLt; have hd := d.isLt
  rw [val_main_v12_apply, val_main_v11_apply, val_main_v6_apply]
  refine congrArg (val_main_v3 (F := Ideal) x0 x1) (funext fun a => ?_)
  match a with
  | ⟨0, _⟩ => exact Fin.ext (by show (((N.val * 64 + t.val) * 8 + h.val) * 32 + d.val) / 16384 = N.val; omega)
  | ⟨1, _⟩ => exact Fin.ext (by show (((N.val * 64 + t.val) * 8 + h.val) * 32 + d.val) / 256 % 64 = t.val; omega)
  | ⟨2, _⟩ => exact Fin.ext (by show 512 + (((N.val * 64 + t.val) * 8 + h.val) * 32 + d.val) % 256 = 512 + 32 * h.val + d.val; omega)

theorem values_apply (x0 : (⟨S4x256x224x224, .f32⟩ : BufTy).Contents (Elt Ideal)) (x1 : (⟨S768x256, .f32⟩ : BufTy).Contents (Elt Ideal))
    (b : Fin 4) (r nw : Fin 28) (h : Fin 8) (t : Fin 64) (d : Fin 32) :
    val_main_v12 (F := Ideal) x0 x1 (ix4 (win b r nw) h t d) = part x0 x1 b r nw 2 h t d := by
  rw [values_read, qkv_apply]
  unfold part
  exact congrArg (qkv x0 x1 b r nw t) (Fin.ext (by show 512 + 32 * h.val + d.val = 256 * 2 + 32 * h.val + d.val; omega))

end Cert.WinAttn.Ref

end
-- ==== Proof.RefScores.lean ====
/-
  The scores of one head: the query–key contraction over the 32 lanes, times the scale word; and the row maximum,
  a fold of max over the 64 key tokens started from the floor word.
-/
import proofs.«143008_j49546742726934_2_alg».proof.Proof.Gen.ReferenceIdeal.Read
import proofs.«143008_j49546742726934_2_alg».proof.Proof.Spec
import proofs.«143008_j49546742726934_2_alg».proof.Proof.RefParts
import Idealize.ShloMosaic.PureOps.Reduce

noncomputable section

namespace Cert.WinAttn.Ref

open Idealize.ShloMosaic Idealize.ShloMosaic.ValueIdx Cert.ReferenceIdeal Cert.ReferenceIdeal.Read

/-- A score is the lane contraction of a query token with a key token, times the scale word. -/
theorem scores_apply (x0 : (⟨S4x256x224x224, .f32⟩ : BufTy).Contents (Elt Ideal)) (x1 : (⟨S768x256, .f32⟩ : BufTy).Contents (Elt Ideal))
    (b : Fin 4) (r nw : Fin 28) (h : Fin 8) (tq tk : Fin 64) :
    val_main_v15 (F := Ideal) x0 x1 (ix4 (win b r nw) h tq tk)
      = score (part x0 x1 b r nw 0 h) (part x0 x1 b r nw 1 h) tq tk := by
  rw [val_main_v15_apply, val_main_v13_apply, val_main_v14_apply, val_main_cst_apply, Ideal.mulf_def, Ideal.ofBits_def]
  unfold score
  refine congrArg (· * scaleW) (Finset.sum_congr rfl fun k _ => ?_)
  have el : lidx_main_v13 (ix4 (win b r nw) h tq tk) k = ix4 (win b r nw) h tq k :=
    funext fun a => match a with | ⟨0, _⟩ => rfl | ⟨1, _⟩ => rfl | ⟨2, _⟩ => rfl | ⟨3, _⟩ => rfl
  have er : ridx_main_v13 (ix4 (win b r nw) h tq tk) k = ix4 (win b r nw) h tk k :=
    funext fun a => match a with | ⟨0, _⟩ => rfl | ⟨1, _⟩ => rfl | ⟨2, _⟩ => rfl | ⟨3, _⟩ => rfl
  rw [el, er, queries_apply, keys_apply]

/-- The reduce over the key axis is the fold of max from the floor word over the row of scores. -/
theorem rowFold_apply (x0 : (⟨S4x256x224x224, .f32⟩ : BufTy).Contents (Elt Ideal)) (x1 : (⟨S768x256, .f32⟩ : BufTy).Contents (Elt Ideal))
    (b : Fin 4) (r nw : Fin 28) (h : Fin 8) (tq : Fin 64) :
    val_main_v16 (F := Ideal) x0 x1 (ix3 (win b r nw) h tq)
      = rowMax (score (part x0 x1 b r nw 0 h) (part x0 x1 b r nw 1 h) tq) := by
  have hred : S3136x8x64x64.Reduces [3] S3136x8x64 := by decide
  unfold val_main_v16
  refine (Host.reduce_eq_fold_single _ _ _ _ hred _ _).trans ?_
  unfold rowMax
  show Finset.fold max floorW _ (Finset.univ : Finset (Fin 64)) = _
  refine Finset.fold_congr fun k _ => ?_
  refine Eq.trans (congrArg (val_main_v15 (F := Ideal) x0 x1) (?_ : hred.lift (ix3 (win b r nw) h tq) k = ix4 (win b r nw) h tq k)) (scores_apply x0 x1 b r nw h tq k)
  exact funext fun a => match a with
    | ⟨0, _⟩ => Fin.ext rfl | ⟨1, _⟩ => Fin.ext rfl | ⟨2, _⟩ => Fin.ext rfl | ⟨3, _⟩ => Fin.ext rfl

/-- The maximum with the broadcast floor word in front changes nothing. -/
theorem rowMax_apply (x0 : (⟨S4x256x224x224, .f32⟩ : BufTy).Contents (Elt Ideal)) (x1 : (⟨S768x256, .f32⟩ : BufTy).Contents (Elt Ideal))
    (b : Fin 4) (r nw : Fin 28) (h : Fin 8) (tq : Fin 64) :
    val_main_v18 (F := Ideal) x0 x1 (ix3 (win b r nw) h tq)
      = rowMax (score (part x0 x1 b r nw 0 h) (part x0 x1 b r nw 1 h) tq) := by
  rw [val_main_v18_apply, val_main_v17_apply, val_main_cst_1_apply, rowFold_apply, Ideal.maximumf_def, Ideal.ofBits_def]
  exact max_floor_rowMax _

end Cert.WinAttn.Ref

end
-- ==== Proof.RefSoftmax.lean ====
/-
  The softmax weights of one head: the exponential of a score minus its row maximum, the row sum of these
  (started from the zero word), and their quotient.
-/
import proofs.«143008_j49546742726934_2_alg».proof.Proof.Gen.ReferenceIdeal.Read
import proofs.«143008_j49546742726934_2_alg».proof.Proof.Spec
import proofs.«143008_j49546742726934_2_alg».proof.Proof.RefScores

noncomputable section

namespace Cert.WinAttn.Ref

open Idealize.ShloMosaic Idealize.ShloMosaic.ValueIdx Cert.ReferenceIdeal Cert.ReferenceIdeal.Read

/-- The unnormalised weight: the row maximum is broadcast back along the key axis before the subtraction. -/
theorem expo_apply (x0 : (⟨S4x256x224x224, .f32⟩ : BufTy).Contents (Elt Ideal)) (x1 : (⟨S768x256, .f32⟩ : BufTy).Contents (Elt Ideal))
    (b : Fin 4) (r nw : Fin 28) (h : Fin 8) (tq tk : Fin 64) :
    val_main_v22 (F := Ideal) x0 x1 (ix4 (win b r nw) h tq tk)
      = expo (part x0 x1 b r nw 0 h) (part x0 x1 b r nw 1 h) tq tk := by
  rw [val_main_v22_apply, val_main_v21_apply, val_main_v20_apply, val_main_v19_apply, Ideal.hostUnary_exp_def, Ideal.subf_def]
  have e : idx_main_v19 (idx_main_v20 (ix4 (win b r nw) h tq tk)) = ix3 (win b r nw) h tq :=
    funext fun a => match a with | ⟨0, _⟩ => rfl | ⟨1, _⟩ => rfl | ⟨2, _⟩ => rfl
  rw [e, scores_apply, rowMax_apply]
  rfl

/-- The normaliser: the sum of the row's weights; the zero word it starts from adds nothing. -/
theorem expoSum_apply (x0 : (⟨S4x256x224x224, .f32⟩ : BufTy).Contents (Elt Ideal)) (x1 : (⟨S768x256, .f32⟩ : BufTy).Contents (Elt Ideal))
    (b : Fin 4) (r nw : Fin 28) (h : Fin 8) (tq : Fin 64) :
    val_main_v23 (F := Ideal) x0 x1 (ix3 (win b r nw) h tq)
      = ∑ tk' : Fin 64, expo (part x0 x1 b r nw 0 h) (part x0 x1 b r nw 1 h) tq tk' := by
  rw [val_main_v23_apply, val_main_cst_2_apply, Ideal.ofBits_def, Ideal.ofBits_zero_f32, zero_add]
  refine Finset.sum_congr rfl fun k _ => ?_
  have e : idx_main_v23 (ix3 (win b r nw) h tq) k = ix4 (win b r nw) h tq k :=
    funext fun a => match a with | ⟨0, _⟩ => rfl | ⟨1, _⟩ => rfl | ⟨2, _⟩ => rfl | ⟨3, _⟩ => rfl
  rw [e, expo_apply]

/-- The softmax weight: the normaliser is broadcast back along the key axis before the division. -/
theorem weights_apply (x0 : (⟨S4x256x224x224, .f32⟩ : BufTy).Contents (Elt Ideal)) (x1 : (⟨S768x256, .f32⟩ : BufTy).Contents (Elt Ideal))
    (b : Fin 4) (r nw : Fin 28) (h : Fin 8) (tq tk : Fin 64) :
    val_main_v26 (F := Ideal) x0 x1 (ix4 (win b r nw) h tq tk)
      = Ideal.div (expo (part x0 x1 b r nw 0 h) (part x0 x1 b r nw 1 h) tq tk)
          (∑ tk' : Fin 64, expo (part x0 x1 b r nw 0 h) (part x0 x1 b r nw 1 h) tq tk') := by
  rw [val_main_v26_apply, val_main_v25_apply, val_main_v24_apply, Ideal.hostDivf_def]
  have e : idx_main_v24 (idx_main_v25 (ix4 (win b r nw) h tq tk)) = ix3 (win b r nw) h tq :=
    funext fun a => match a with | ⟨0, _⟩ => rfl | ⟨1, _⟩ => rfl | ⟨2, _⟩ => rfl
  rw [e, expo_apply, expoSum_apply]

end Cert.WinAttn.Ref

end
-- ==== Proof.RefContext.lean ====
/-
  One head's attention output — the softmax weights contracted with the value tokens over the key axis — and the
  heads laid side by side: channel c' of the joined array is lane c' mod 32 of head c' / 32.
-/
import proofs.«143008_j49546742726934_2_alg».proof.Proof.Gen.ReferenceIdeal.Read
import proofs.«143008_j49546742726934_2_alg».proof.Proof.Spec
import proofs.«143008_j49546742726934_2_alg».proof.Proof.RefSoftmax

noncomputable section

namespace Cert.WinAttn.Ref

open Idealize.ShloMosaic Idealize.ShloMosaic.ValueIdx Cert.ReferenceIdeal Cert.ReferenceIdeal.Read

/-- The weights contracted with the values over the 64 key tokens. -/
theorem ctx_apply (x0 : (⟨S4x256x224x224, .f32⟩ : BufTy).Contents (Elt Ideal)) (x1 : (⟨S768x256, .f32⟩ : BufTy).Contents (Elt Ideal))
    (b : Fin 4) (r nw : Fin 28) (h : Fin 8) (t : Fin 64) (d : Fin 32) :
    val_main_v27 (F := Ideal) x0 x1 (ix4 (win b r nw) h t d) = ctx x0 x1 b r nw h t d := by
  rw [val_main_v27_apply]
  unfold ctx attn
  refine Finset.sum_congr rfl fun k _ => ?_
  have el : lidx_main_v27 (ix4 (win b r nw) h t d) k = ix4 (win b r nw) h t k :=
    funext fun a => match a with | ⟨0, _⟩ => rfl | ⟨1, _⟩ => rfl | ⟨2, _⟩ => rfl | ⟨3, _⟩ => rfl
  have er : ridx_main_v27 (ix4 (win b r nw) h t d) k = ix4 (win b r nw) h k d :=
    funext fun a => match a with | ⟨0, _⟩ => rfl | ⟨1, _⟩ => rfl | ⟨2, _⟩ => rfl | ⟨3, _⟩ => rfl
  rw [el, er, weights_apply, values_apply]

/-- The token axis moves back ahead of the head axis and the (head, lane) pair is read as one channel. -/
theorem ctxAll_apply (x0 : (⟨S4x256x224x224, .f32⟩ : BufTy).Contents (Elt Ideal)) (x1 : (⟨S768x256, .f32⟩ : BufTy).Contents (Elt Ideal))
    (b : Fin 4) (r nw : Fin 28) (t : Fin 64) (c' : Fin 256) :
    val_main_v29 (F := Ideal) x0 x1 (ix3 (win b r nw) t c') = ctxAll x0 x1 b r nw t c' := by
  have hc := c'.isLt; have ht := t.isLt; have hN := (win b r nw).isLt
  rw [val_main_v29_apply, val_main_v28_apply]
  unfold ctxAll
  refine Eq.trans (congrArg (val_main_v27 (F := Ideal) x0 x1) (?_ : _ = ix4 (win b r nw) (⟨c'.val / 32, by omega⟩ : Fin 8) t (⟨c'.val % 32, by omega⟩ : Fin 32))) (ctx_apply x0 x1 b r nw _ t _)
  funext a
  match a with
  | ⟨0, _⟩ => exact Fin.ext (by show (((win b r nw).val * 64 + t.val) * 256 + c'.val) / 16384 = (win b r nw).val; omega)
  | ⟨1, _⟩ => exact Fin.ext (by show (((win b r nw).val * 64 + t.val) * 256 + c'.val) / 32 % 8 = c'.val / 32; omega)
  | ⟨2, _⟩ => exact Fin.ext (by show (((win b r nw).val * 64 + t.val) * 256 + c'.val) / 256 % 64 = t.val; omega)
  | ⟨3, _⟩ => exact Fin.ext (by show (((win b r nw).val * 64 + t.val) * 256 + c'.val) % 32 = c'.val % 32; omega)

end Cert.WinAttn.Ref

end
-- ==== Proof.RefOutput.lean ====
/-
  The output projection with its bias, and the way back from windows to the image: two reshapes around a transpose
  that undo the window partition. Pixel (8r + hi, 8nw + wj) of batch entry b at channel c is token 8·hi + wj of
  window (b, r, nw), which is what the specification G says.
-/
import proofs.«143008_j49546742726934_2_alg».proof.Proof.Gen.ReferenceIdeal.Read
import proofs.«143008_j49546742726934_2_alg».proof.Proof.Spec
import proofs.«143008_j49546742726934_2_alg».proof.Proof.RefContext
import Idealize.ShloMosaic.Lib.ValueIdxRank6

noncomputable section

namespace Cert.WinAttn.Ref

open Idealize.ShloMosaic Idealize.ShloMosaic.ValueIdx Cert.ReferenceIdeal Cert.ReferenceIdeal.Read

/-- The projection contracts the joined heads with a row of the projection matrix and adds the bias of that row. -/
theorem outp_apply (x0 : (⟨S4x256x224x224, .f32⟩ : BufTy).Contents (Elt Ideal)) (x1 : (⟨S768x256, .f32⟩ : BufTy).Contents (Elt Ideal))
    (x2 : (⟨S256x256, .f32⟩ : BufTy).Contents (Elt Ideal)) (x3 : (⟨S256, .f32⟩ : BufTy).Contents (Elt Ideal))
    (b : Fin 4) (r nw : Fin 28) (t : Fin 64) (c : Fin 256) :
    val_main_v33 (F := Ideal) x0 x1 x2 x3 (ix3 (win b r nw) t c) = outp x0 x1 x2 x3 b r nw t c := by
  rw [val_main_v33_apply, val_main_v30_apply, val_main_v32_apply, val_main_v31_apply, Ideal.addf_def]
  unfold outp
  have eb : idx_main_v31 (idx_main_v32 (ix3 (win b r nw) t c)) = ix1 c :=
    funext fun a => match a with | ⟨0, _⟩ => rfl
  rw [eb]
  refine congrArg (· + x3 (ix1 c)) (Finset.sum_congr rfl fun k _ => ?_)
  have el : lidx_main_v30 (ix3 (win b r nw) t c) k = ix3 (win b r nw) t k :=
    funext fun a => match a with | ⟨0, _⟩ => rfl | ⟨1, _⟩ => rfl | ⟨2, _⟩ => rfl
  have er : ridx_main_v30 (ix3 (win b r nw) t c) k = ix2 c k :=
    funext fun a => match a with | ⟨0, _⟩ => rfl | ⟨1, _⟩ => rfl
  rw [el, er, ctxAll_apply]

/-- The result at pixel `(8r + hi, 8nw + wj)`: both reshapes keep the row-major position and the transpose between
    them moves the channel axis back to second place. -/
theorem image_apply (x0 : (⟨S4x256x224x224, .f32⟩ : BufTy).Contents (Elt Ideal)) (x1 : (⟨S768x256, .f32⟩ : BufTy).Contents (Elt Ideal))
    (x2 : (⟨S256x256, .f32⟩ : BufTy).Contents (Elt Ideal)) (x3 : (⟨S256, .f32⟩ : BufTy).Contents (Elt Ideal))
    (b : Fin 4) (c : Fin 256) (r nw : Fin 28) (hi wj : Fin 8) (hh ww : Fin 224)
    (eh : hh.val = 8 * r.val + hi.val) (ew : ww.val = 8 * nw.val + wj.val) :
    val_main_v36 (F := Ideal) x0 x1 x2 x3 (ix4 b c hh ww)
      = outp x0 x1 x2 x3 b r nw ⟨8 * hi.val + wj.val, by have := hi.isLt; have := wj.isLt; omega⟩ c := by
  have hb := b.isLt; have hc := c.isLt; have hr := r.isLt; have hnw := nw.isLt; have hhi := hi.isLt; have hwj := wj.isLt
  unfold val_main_v36
  refine (shapeCast_apply _ _ _ (ix6 b c r hi nw wj) ?_).trans ?_
  · rw [Shape.rowMajor_val_six, Shape.rowMajor_val_four]
    show ((((b.val * 256 + c.val) * 28 + r.val) * 8 + hi.val) * 28 + nw.val) * 8 + wj.val
      = ((b.val * 256 + c.val) * 224 + hh.val) * 224 + ww.val
    omega
  · rw [val_main_v35_apply]
    unfold val_main_v34
    refine (shapeCast_apply _ _ _ (ix3 (win b r nw) (⟨8 * hi.val + wj.val, by omega⟩ : Fin 64) c) ?_).trans (outp_apply x0 x1 x2 x3 b r nw _ c)
    rw [Shape.rowMajor_val_three, Shape.rowMajor_val_six]
    show (((b.val * 28 + r.val) * 28 + nw.val) * 64 + (8 * hi.val + wj.val)) * 256 + c.val
      = ((((b.val * 28 + r.val) * 28 + nw.val) * 8 + hi.val) * 8 + wj.val) * 256 + c.val
    omega

/-- The reference program computes the specification. -/
theorem ref_eq_G (x0 : (⟨S4x256x224x224, .f32⟩ : BufTy).Contents (Elt Ideal)) (x1 : (⟨S768x256, .f32⟩ : BufTy).Contents (Elt Ideal))
    (x2 : (⟨S256x256, .f32⟩ : BufTy).Contents (Elt Ideal)) (x3 : (⟨S256, .f32⟩ : BufTy).Contents (Elt Ideal)) :
    val_main_v36 (F := Ideal) x0 x1 x2 x3 = G x0 x1 x2 x3 := by
  funext i
  have h2 : (i 2).val < 224 := (i 2).isLt
  have h3 : (i 3).val < 224 := (i 3).isLt
  have e : i = ix4 (i 0 : Fin 4) (i 1 : Fin 256) (i 2 : Fin 224) (i 3 : Fin 224) := eq_ix4 i
  have key := image_apply x0 x1 x2 x3 (i 0 : Fin 4) (i 1 : Fin 256)
    (⟨(i 2).val / 8, by omega⟩ : Fin 28) (⟨(i 3).val / 8, by omega⟩ : Fin 28)
    (⟨(i 2).val % 8, by omega⟩ : Fin 8) (⟨(i 3).val % 8, by omega⟩ : Fin 8) (i 2 : Fin 224) (i 3 : Fin 224)
    (by show (i 2).val = 8 * ((i 2).val / 8) + (i 2).val % 8; omega) (by show (i 3).val = 8 * ((i 3).val / 8) + (i 3).val % 8; omega)
  exact (congrArg (val_main_v36 (F := Ideal) x0 x1 x2 x3) e).trans key

end Cert.WinAttn.Ref

end
-- ==== Proof.KerArrayIdx.lean ====
/-
  The grid of the window-attention kernel and its index maps.

  The grid is 4 × 28: point (b, r) handles the strip of rows 8r … 8r+7 of batch entry b. The input image and the
  output are cut into blocks [1, 256, 8, 224] at block index (b, 0, r, 0); the four weight matrices and the bias are
  read whole at every point. These relations between the printed index maps are decided once over the 112 points.
-/
import proofs.«143008_j49546742726934_2_alg».proof.Proof.Gen.KernelIdeal.Value
import Idealize.ShloMosaic.Lib.ValueIdx

noncomputable section

namespace Cert.WinAttn.Ker

open Cert.KernelIdeal Cert.KernelIdeal.Gen Idealize.ShloMosaic Idealize.ShloMosaic.TcCoe Idealize.SL.Sem
open Idealize.ShloMosaic.ValueIdx
open Idealize.ShloMosaic.Pipeline (Dat)

/-- At every grid point the image block and the output block sit at the same block index `(b, 0, r, 0)` with `b < 4`
    and `r < 28`, and the weights and the bias sit at block index 0. -/
theorem idx_facts : ∀ t : Fin cfg0.N,
    win0_0.index t (0 : Fin 4) = win0_6.index t (0 : Fin 4)
    ∧ win0_0.index t (1 : Fin 4) = 0
    ∧ win0_0.index t (2 : Fin 4) = win0_6.index t (2 : Fin 4)
    ∧ win0_0.index t (3 : Fin 4) = 0
    ∧ win0_6.index t (1 : Fin 4) = 0
    ∧ win0_6.index t (3 : Fin 4) = 0
    ∧ win0_6.index t (0 : Fin 4) < 4
    ∧ win0_6.index t (2 : Fin 4) < 28
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 :=
  (by decide +kernel : ∀ t : Fin grid0.N, _)

/-- Every strip `(b, r)` is some grid point's. -/
theorem idx_onto : ∀ (q0 : Fin 4) (q2 : Fin 28), ∃ t : Fin cfg0.N, win0_6.index t = ![q0.val, 0, q2.val, 0] :=
  (by decide +kernel : ∀ (q0 : Fin 4) (q2 : Fin 28), ∃ t : Fin grid0.N, win0_6.index t = ![q0.val, 0, q2.val, 0])

end Cert.WinAttn.Ker

end
-- ==== Proof.KerArrayBlk.lean ====
/-
  The blocks of the window-attention kernel's windows at a grid point, and the cover of the output.

  At the point of batch entry b and strip r the image block is rows 8r … 8r+7 of entry b, every channel and column;
  the weights and the bias are read whole; and the output block is the same strip of the result. The 112 strips
  tile the result.
-/
import proofs.«143008_j49546742726934_2_alg».proof.Proof.KerArrayIdx

noncomputable section

namespace Cert.WinAttn.Ker

open Cert.KernelIdeal Cert.KernelIdeal.Gen Idealize.ShloMosaic Idealize.ShloMosaic.TcCoe Idealize.SL.Sem
open Idealize.ShloMosaic.ValueIdx
open Idealize.ShloMosaic.Pipeline (Dat)

/-- The batch entry a grid point works on. -/
def ptB (t : Fin cfg0.N) : Fin 4 := ⟨win0_6.index t (0 : Fin 4), (idx_facts t).2.2.2.2.2.2.1⟩
/-- The strip (block of 8 rows) a grid point works on. -/
def ptR (t : Fin cfg0.N) : Fin 28 := ⟨win0_6.index t (2 : Fin 4), (idx_facts t).2.2.2.2.2.2.2.1⟩

theorem ptB_val (t : Fin cfg0.N) : (ptB t).val = win0_6.index t (0 : Fin 4) := rfl
theorem ptR_val (t : Fin cfg0.N) : (ptR t).val = win0_6.index t (2 : Fin 4) := rfl

variable (m : (ℓ : Loc nD τ sig) → Buf (Elt Ideal) ℓ)

/-! ### The input blocks at a point -/

/-- The image block at point `t`: rows `8r … 8r+7` of batch entry `b`. -/
theorem iblk0_apply (c : Dev nD) (t : Fin cfg0.N) (ch : Fin 256) (hi : Fin 8) (wp : Fin 224) :
    iblk m c 0 t (ix4 (0 : Fin 1) ch hi wp)
      = (V m c main_arg0 : S4x256x224x224.Idx → EReal)
          (ix4 (ptB t) ch ⟨8 * (ptR t).val + hi.val, by have := (ptR t).isLt; have := hi.isLt; omega⟩ wp) := by
  obtain ⟨e0, e1, e2, e3, -⟩ := idx_facts t
  show (V m c main_arg0 : S4x256x224x224.Idx → EReal) (((cfg0.win 0).blk t).view.emb (ix4 (0 : Fin 1) ch hi wp)) = _
  have h : ((cfg0.win 0).blk t).view.emb (ix4 (0 : Fin 1) ch hi wp)
      = ix4 (ptB t) ch ⟨8 * (ptR t).val + hi.val, by have := (ptR t).isLt; have := hi.isLt; omega⟩ wp := by
    funext a; apply Fin.ext
    match a with
    | ⟨0, _⟩ => show win0_0.index t (0 : Fin 4) * 1 + 1 * (0 : Nat) = win0_6.index t (0 : Fin 4); omega
    | ⟨1, _⟩ => show win0_0.index t (1 : Fin 4) * 256 + 1 * ch.val = ch.val; omega
    | ⟨2, _⟩ => show win0_0.index t (2 : Fin 4) * 8 + 1 * hi.val = 8 * win0_6.index t (2 : Fin 4) + hi.val; omega
    | ⟨3, _⟩ => show win0_0.index t (3 : Fin 4) * 224 + 1 * wp.val = wp.val; omega
  rw [h]

/-- The query weights are read whole at every point. -/
theorem iblk1_apply (c : Dev nD) (t : Fin cfg0.N) (ch o : Fin 256) :
    iblk m c 1 t (ix2 ch o) = (V m c main_v2 : S256x256.Idx → EReal) (ix2 ch o) := by
  obtain ⟨-, -, -, -, -, -, -, -, e0, e1, -⟩ := idx_facts t
  show (V m c main_v2 : S256x256.Idx → EReal) (((cfg0.win 1).blk t).view.emb (ix2 ch o)) = _
  have h : ((cfg0.win 1).blk t).view.emb (ix2 ch o) = ix2 ch o := by
    funext a; apply Fin.ext
    match a with
    | ⟨0, _⟩ => show win0_1.index t (0 : Fin 2) * 256 + 1 * ch.val = ch.val; omega
    | ⟨1, _⟩ => show win0_1.index t (1 : Fin 2) * 256 + 1 * o.val = o.val; omega
  rw [h]

/-- The key weights are read whole at every point. -/
theorem iblk2_apply (c : Dev nD) (t : Fin cfg0.N) (ch o : Fin 256) :
    iblk m c 2 t (ix2 ch o) = (V m c main_v5 : S256x256.Idx → EReal) (ix2 ch o) := by
  obtain ⟨-, -, -, -, -, -, -, -, -, -, e0, e1, -⟩ := idx_facts t
  show (V m c main_v5 : S256x256.Idx → EReal) (((cfg0.win 2).blk t).view.emb (ix2 ch o)) = _
  have h : ((cfg0.win 2).blk t).view.emb (ix2 ch o) = ix2 ch o := by
    funext a; apply Fin.ext
    match a with
    | ⟨0, _⟩ => show win0_2.index t (0 : Fin 2) * 256 + 1 * ch.val = ch.val; omega
    | ⟨1, _⟩ => show win0_2.index t (1 : Fin 2) * 256 + 1 * o.val = o.val; omega
  rw [h]

/-- The value weights are read whole at every point. -/
theorem iblk3_apply (c : Dev nD) (t : Fin cfg0.N) (ch o : Fin 256) :
    iblk m c 3 t (ix2 ch o) = (V m c main_v8 : S256x256.Idx → EReal) (ix2 ch o) := by
  obtain ⟨-, -, -, -, -, -, -, -, -, -, -, -, e0, e1, -⟩ := idx_facts t
  show (V m c main_v8 : S256x256.Idx → EReal) (((cfg0.win 3).blk t).view.emb (ix2 ch o)) = _
  have h : ((cfg0.win 3).blk t).view.emb (ix2 ch o) = ix2 ch o := by
    funext a; apply Fin.ext
    match a with
    | ⟨0, _⟩ => show win0_3.index t (0 : Fin 2) * 256 + 1 * ch.val = ch.val; omega
    | ⟨1, _⟩ => show win0_3.index t (1 : Fin 2) * 256 + 1 * o.val = o.val; omega
  rw [h]

/-- The output projection is read whole at every point. -/
theorem iblk4_apply (c : Dev nD) (t : Fin cfg0.N) (c' ch : Fin 256) :
    iblk m c 4 t (ix2 c' ch) = (V m c main_v10 : S256x256.Idx → EReal) (ix2 c' ch) := by
  obtain ⟨-, -, -, -, -, -, -, -, -, -, -, -, -, -, e0, e1, -⟩ := idx_facts t
  show (V m c main_v10 : S256x256.Idx → EReal) (((cfg0.win 4).blk t).view.emb (ix2 c' ch)) = _
  have h : ((cfg0.win 4).blk t).view.emb (ix2 c' ch) = ix2 c' ch := by
    funext a; apply Fin.ext
    match a with
    | ⟨0, _⟩ => show win0_4.index t (0 : Fin 2) * 256 + 1 * c'.val = c'.val; omega
    | ⟨1, _⟩ => show win0_4.index t (1 : Fin 2) * 256 + 1 * ch.val = ch.val; omega
  rw [h]

/-- The bias is read whole at every point. -/
theorem iblk5_apply (c : Dev nD) (t : Fin cfg0.N) (ch : Fin 256) :
    iblk m c 5 t (ix1 ch) = (V m c main_arg3 : S256.Idx → EReal) (ix1 ch) := by
  obtain ⟨-, -, -, -, -, -, -, -, -, -, -, -, -, -, -, -, e0⟩ := idx_facts t
  show (V m c main_arg3 : S256.Idx → EReal) (((cfg0.win 5).blk t).view.emb (ix1 ch)) = _
  have h : ((cfg0.win 5).blk t).view.emb (ix1 ch) = ix1 ch := by
    funext a; apply Fin.ext
    match a with
    | ⟨0, _⟩ => show win0_5.index t (0 : Fin 1) * 256 + 1 * ch.val = ch.val; omega
  rw [h]

/-! ### The output blocks tile the result -/

/-- The output block at point `t`, read at `(0, ch, hi, wp)`, sits at `(b, ch, 8r + hi, wp)` of the result. -/
theorem oblk_emb (t : Fin cfg0.N) (ch : Fin 256) (hi : Fin 8) (wp : Fin 224) :
    ((cfg0.win 6).blk t).view.emb (ix4 (0 : Fin 1) ch hi wp)
      = ix4 (ptB t) ch ⟨8 * (ptR t).val + hi.val, by have := (ptR t).isLt; have := hi.isLt; omega⟩ wp := by
  obtain ⟨-, -, -, -, e4, e5, -⟩ := idx_facts t
  funext a; apply Fin.ext
  match a with
  | ⟨0, _⟩ => show win0_6.index t (0 : Fin 4) * 1 + 1 * (0 : Nat) = win0_6.index t (0 : Fin 4); omega
  | ⟨1, _⟩ => show win0_6.index t (1 : Fin 4) * 256 + 1 * ch.val = ch.val; omega
  | ⟨2, _⟩ => show win0_6.index t (2 : Fin 4) * 8 + 1 * hi.val = 8 * win0_6.index t (2 : Fin 4) + hi.val; omega
  | ⟨3, _⟩ => show win0_6.index t (3 : Fin 4) * 224 + 1 * wp.val = wp.val; omega

/-- An index of the result is in point `t`'s block iff each coordinate is in the block's range on its axis. -/
theorem mem_blk (t : Fin cfg0.N) (i : S4x256x224x224.Idx) :
    i ∈ ((cfg0.win 6).blk t).view.set ↔ ∀ a : Fin 4, win0_6.index t a * S1x256x8x224.size a ≤ (i a).val
      ∧ (i a).val < win0_6.index t a * S1x256x8x224.size a + S1x256x8x224.size a := by
  show i ∈ ((View.whole main_v11).slice (win0_6.rect t)).set ↔ _
  rw [View.set_slice_whole, Rect.mem_set_unit]
  exact Iff.rfl

/-- Every index of the result lies in the block of the point of its batch entry and its strip. -/
theorem cover (i : S4x256x224x224.Idx) :
    ∃ t : Fin cfg0.N, (cfg0.win 6).flush t = true ∧ i ∈ ((cfg0.win 6).blk t).view.set := by
  have h0 : (i 0).val < 4 := (i 0).isLt
  have h1 : (i 1).val < 256 := (i 1).isLt
  have h2 : (i 2).val < 224 := (i 2).isLt
  have h3 : (i 3).val < 224 := (i 3).isLt
  obtain ⟨t, ht⟩ := idx_onto ⟨(i 0).val, h0⟩ ⟨(i 2).val / 8, by omega⟩
  have q0 : win0_6.index t (0 : Fin 4) = (i 0).val := congrFun ht 0
  have q1 : win0_6.index t (1 : Fin 4) = 0 := congrFun ht 1
  have q2 : win0_6.index t (2 : Fin 4) = (i 2).val / 8 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 256 ≤ (i 1).val ∧ (i 1).val < win0_6.index t (1 : Fin 4) * 256 + 256; omega
  | ⟨2, _⟩ => show win0_6.index t (2 : Fin 4) * 8 ≤ (i 2).val ∧ (i 2).val < win0_6.index t (2 : Fin 4) * 8 + 8; omega
  | ⟨3, _⟩ => show win0_6.index t (3 : Fin 4) * 224 ≤ (i 3).val ∧ (i 3).val < win0_6.index t (3 : Fin 4) * 224 + 224; omega

end Cert.WinAttn.Ker

end
-- ==== Proof.KerArrayHost.lean ====
/-
  The weight matrices as the region finds them.

  Before the region the host cuts the joint projection matrix W : [768, 256] into its three [256, 256] row blocks
  (queries, keys, values), transposes each and narrows it to 16 bits; it transposes and narrows the output projection
  likewise. On the extended reals narrowing is the identity, so entry (ch, o) of block p is W (256·p + o, ch), and
  entry (c', ch) of the transposed output projection is its entry (ch, c').
-/
import proofs.«143008_j49546742726934_2_alg».proof.Proof.Gen.KernelIdeal.Value
import Idealize.ShloMosaic.Lib.ValueIdx
import Idealize.ShloMosaic.Lib.StableHlo.Run
import Idealize.ShloMosaic.Lib.Pipeline.Value

noncomputable section

namespace Cert.WinAttn.Ker

open Cert.KernelIdeal Cert.KernelIdeal.Gen Idealize.ShloMosaic Idealize.ShloMosaic.TcCoe Idealize.SL.Sem
open Idealize.ShloMosaic.ValueIdx
open Idealize.ShloMosaic.Pipeline (Dat)

/-! ### The layout operations at an index, for any element type -/

/-- A transposed 256-row block of a `[768, 256]` array at `(ch, o)` is the array at row `off + o`, column `ch`. -/
theorem rowBlockT_apply {α : Type} (off : Nat) (hoff : off + 256 ≤ 768) (hs : S768x256.Slices ![off, 0] S256x256)
    (A : S768x256.Idx → α) (ch o : Fin 256) :
    transpose S256x256 [1, 0] (extractStridedSlice S256x256 ![off, 0] A hs) transposes_S256x256_S256x256_1_0 (ix2 ch o)
      = A (ix2 ⟨off + o.val, by have := o.isLt; omega⟩ ch) := by
  refine (transpose_apply _ _ transposes_S256x256_S256x256_1_0 (ix2 ch o) (ix2 o ch) fun b => ?_).trans ?_
  · match b with
    | ⟨0, _⟩ => rfl
    | ⟨1, _⟩ => rfl
  · refine extractStridedSlice_apply _ A hs (ix2 o ch) _ fun a => ?_
    match a with
    | ⟨0, _⟩ => rfl
    | ⟨1, _⟩ => show ch.val = 0 + ch.val; omega

/-- A transposed `[256, 256]` array at `(c', ch)` is the array at `(ch, c')`. -/
theorem squareT_apply {α : Type} (A : S256x256.Idx → α) (c' ch : Fin 256) :
    transpose S256x256 [1, 0] A transposes_S256x256_S256x256_1_0 (ix2 c' ch) = A (ix2 ch c') := by
  refine transpose_apply _ _ transposes_S256x256_S256x256_1_0 (ix2 c' ch) (ix2 ch c') fun b => ?_
  match b with
  | ⟨0, _⟩ => rfl
  | ⟨1, _⟩ => rfl

/-! ### The four weight arrays at region entry -/

variable (m : (ℓ : Loc nD τ sig) → Buf (Elt Ideal) ℓ)

/-- The query weights at region entry: the first row block of the joint matrix, transposed. -/
theorem V_main_v2_apply (c : Dev nD) (ch o : Fin 256) :
    (V m c main_v2 : S256x256.Idx → EReal) (ix2 ch o)
      = (V m c main_arg1 : S768x256.Idx → EReal) (ix2 ⟨o.val, by have := o.isLt; omega⟩ ch) := by
  have e : @Eq (FVec Ideal S256x256 .bf16) (V m c main_v2)
      (truncf .bf16 (transpose S256x256 [1, 0] (extractStridedSlice S256x256 ![0, 0]
          (m ((c : Thread nD τ).loc main_arg1) : (⟨S768x256, .f32⟩ : BufTy).Contents (Elt Ideal))
          slices_S768x256_S256x256_0_0) transposes_S256x256_S256x256_1_0) bitsLt_bf16_f32) := by
    dsimp only [Gen.V, Gen.hostOps0]; after_results
  rw [e, V_main_arg1]
  refine (rowBlockT_apply 0 (by omega) slices_S768x256_S256x256_0_0 _ ch o).trans ?_
  exact congrArg _ (congrArg₂ ix2 (Fin.ext (Nat.zero_add _)) rfl)

/-- The key weights at region entry: the second row block, transposed. -/
theorem V_main_v5_apply (c : Dev nD) (ch o : Fin 256) :
    (V m c main_v5 : S256x256.Idx → EReal) (ix2 ch o)
      = (V m c main_arg1 : S768x256.Idx → EReal) (ix2 ⟨256 + o.val, by have := o.isLt; omega⟩ ch) := by
  have e : @Eq (FVec Ideal S256x256 .bf16) (V m c main_v5)
      (truncf .bf16 (transpose S256x256 [1, 0] (extractStridedSlice S256x256 ![256, 0]
          (m ((c : Thread nD τ).loc main_arg1) : (⟨S768x256, .f32⟩ : BufTy).Contents (Elt Ideal))
          slices_S768x256_S256x256_256_0) transposes_S256x256_S256x256_1_0) bitsLt_bf16_f32) := by
    dsimp only [Gen.V, Gen.hostOps0]; after_results
  rw [e, V_main_arg1]
  exact rowBlockT_apply 256 (by omega) slices_S768x256_S256x256_256_0 _ ch o

/-- The value weights at region entry: the third row block, transposed. -/
theorem V_main_v8_apply (c : Dev nD) (ch o : Fin 256) :
    (V m c main_v8 : S256x256.Idx → EReal) (ix2 ch o)
      = (V m c main_arg1 : S768x256.Idx → EReal) (ix2 ⟨512 + o.val, by have := o.isLt; omega⟩ ch) := by
  have e : @Eq (FVec Ideal S256x256 .bf16) (V m c main_v8)
      (truncf .bf16 (transpose S256x256 [1, 0] (extractStridedSlice S256x256 ![512, 0]
          (m ((c : Thread nD τ).loc main_arg1) : (⟨S768x256, .f32⟩ : BufTy).Contents (Elt Ideal))
          slices_S768x256_S256x256_512_0) transposes_S256x256_S256x256_1_0) bitsLt_bf16_f32) := by
    dsimp only [Gen.V, Gen.hostOps0]; after_results
  rw [e, V_main_arg1]
  exact rowBlockT_apply 512 (by omega) slices_S768x256_S256x256_512_0 _ ch o

/-- The output projection at region entry: transposed. -/
theorem V_main_v10_apply (c : Dev nD) (c' ch : Fin 256) :
    (V m c main_v10 : S256x256.Idx → EReal) (ix2 c' ch)
      = (V m c main_arg2 : S256x256.Idx → EReal) (ix2 ch c') := by
  have e : @Eq (FVec Ideal S256x256 .bf16) (V m c main_v10)
      (truncf .bf16 (transpose S256x256 [1, 0]
          (m ((c : Thread nD τ).loc main_arg2) : (⟨S256x256, .f32⟩ : BufTy).Contents (Elt Ideal))
          transposes_S256x256_S256x256_1_0) bitsLt_bf16_f32) := by
    dsimp only [Gen.V, Gen.hostOps0]; after_results
  rw [e, V_main_arg2]
  exact squareT_apply _ c' ch

end Cert.WinAttn.Ker

end
-- ==== Proof.KerHeadDef.lean ====
/-
  One attention head of the kernel body, as a term over the three strip vectors.

  The body treats the 8 heads alike: head h reads lanes 32·h … 32·h+31 of the query, key and value vectors of a
  strip (28 windows × 64 tokens × 256 lanes), forms the scaled scores, subtracts the row maximum, exponentiates,
  normalises by the row sum and multiplies by the values. The definitions below name the stages of that
  computation once, for an arbitrary lane offset, so that each generated payload is one of them by unfolding.
-/
import proofs.«143008_j49546742726934_2_alg».proof.Proof.Gen.KernelIdeal.Skeleton
import proofs.«143008_j49546742726934_2_alg».proof.Proof.Spec

set_option synthInstance.maxSize 4096

noncomputable section

namespace Cert.WinAttn.Ker

open Idealize.ShloMosaic Idealize.ShloMosaic.ValueIdx Idealize.SL.Sem
open Cert.KernelIdeal Cert.KernelIdeal.Gen

variable {F : FTy → Type} [FloatOps F]

/-- The scaled scores of the head at lane offset `off`: queries against keys over the 32 lanes, times the scale word. -/
def headScore (off : Nat) (hs : S28x64x256.Slices ![0, 0, off] S28x64x32)
    (v20 v21 : FVec F S28x64x256 .bf16) : FVec F S28x64x64 .f32 :=
  mulf (matmul dot_S28x64x32_S28x64x32_S28x64x64_2_2_1_1_0_0 none
      (extractStridedSlice S28x64x32 ![0, 0, off] v20 hs) (extractStridedSlice S28x64x32 ![0, 0, off] v21 hs)
      (constant S28x64x64 .f32 0x00000000#32))
    (broadcast S28x64x64 (Scalar.ofBits .f32 0x3E3504F3#32))

/-- The row maxima of a score array, from the floor word. -/
def headMax (s : FVec F S28x64x64 .f32) : FVec F S28x64 .f32 :=
  multiReduction .maximumf [2] S28x64 s 0xFF800000#32 reduces_S28x64x64_S28x64 (.inl rfl) rfl

/-- A `[28, 64]` array of row values spread along a third axis of 64 (keep the reduced axis, then broadcast). -/
def headSpread (m : FVec F S28x64 .f32) : FVec F S28x64x64 .f32 :=
  broadcastTo S28x64x64 (shapeCast S28x64x1 m shapeCasts_S28x64_S28x64x1) broadcasts_S28x64x1_S28x64x64

/-- The unnormalised softmax weights: `exp (s − m)`, the row value `m` spread along the key axis. -/
def headExp (s : FVec F S28x64x64 .f32) (m : FVec F S28x64 .f32) : FVec F S28x64x64 .f32 :=
  exp (subf s (headSpread m))

/-- The row sums of the weights. -/
def headSum (e : FVec F S28x64x64 .f32) : FVec F S28x64 .f32 :=
  multiReduction .add [2] S28x64 e 0x00000000#32 reduces_S28x64x64_S28x64 (.inl rfl) rfl

/-- The weights divided by their row sums, narrowed, against the value tokens. -/
def headOut (vh : FVec F S28x64x32 .bf16) (e : FVec F S28x64x64 .f32) (z : FVec F S28x64 .f32) :
    FVec F S28x64x32 .f32 :=
  matmul dot_S28x64x64_S28x64x32_S28x64x32_2_1_1_2_0_0 none
    (truncf .bf16 (divf e (headSpread z)) bitsLt_bf16_f32) vh (constant S28x64x32 .f32 0x00000000#32)

/-- From the scores `s` and their row maxima `m` to the head's output against the values `vh`. -/
def headFinish (vh : FVec F S28x64x32 .bf16) (s : FVec F S28x64x64 .f32) (m : FVec F S28x64 .f32) :
    FVec F S28x64x32 .f32 :=
  headOut vh (headExp s m) (headSum (headExp s m))

/-- The whole head at lane offset `off`. -/
def headTerm (off : Nat) (hs : S28x64x256.Slices ![0, 0, off] S28x64x32)
    (v20 v21 v22 : FVec F S28x64x256 .bf16) : FVec F S28x64x32 .f32 :=
  headFinish (extractStridedSlice S28x64x32 ![0, 0, off] v22 hs) (headScore off hs v20 v21)
    (multiReduction .maximumf [2] S28x64 (headScore off hs v20 v21) 0xFF800000#32 reduces_S28x64x64_S28x64 (.inl rfl) rfl)

/-! ### Each generated payload is one of the stages -/

theorem pay5_eq_head (v0 : Vec F S1x256x8x224 .f32) (v8 v12 v16 : Vec F S256x256 .bf16) :
    k0_pay5 v0 v8 v12 v16
      = headTerm 0 slices_S28x64x256_o0_0_0_S28x64x32 (k0_pay2 v0 v8) (k0_pay3 v0 v12) (k0_pay4 v0 v16) := rfl

theorem pay6_eq_head (v20 v21 v22 : FVec F S28x64x256 .bf16) :
    k0_pay6 v20 v21 v22 = headTerm 32 slices_S28x64x256_o0_0_32_S28x64x32 v20 v21 v22 := rfl

theorem pay7_eq_head (v20 v21 v22 : FVec F S28x64x256 .bf16) :
    k0_pay7 v20 v21 v22 = headTerm 64 slices_S28x64x256_o0_0_64_S28x64x32 v20 v21 v22 := rfl

theorem pay8_eq_slice (v22 : FVec F S28x64x256 .bf16) :
    k0_pay8 v22 = extractStridedSlice S28x64x32 ![0, 0, 96] v22 slices_S28x64x256_o0_0_96_S28x64x32 := rfl

theorem pay9_eq_headExp (v20 v21 : FVec F S28x64x256 .bf16) :
    k0_pay9 v20 v21
      = headExp (headScore 96 slices_S28x64x256_o0_0_96_S28x64x32 v20 v21)
          (headMax (headScore 96 slices_S28x64x256_o0_0_96_S28x64x32 v20 v21)) := rfl

theorem pay10_eq_headSum (v20 v21 : FVec F S28x64x256 .bf16) :
    k0_pay10 v20 v21 = headSum (k0_pay9 v20 v21) := rfl

theorem pay11_eq_headOut (v76 : FVec F S28x64x32 .bf16) (v84 : FVec F S28x64x64 .f32) (v85 : FVec F S28x64 .f32) :
    k0_pay11 v76 v84 v85 = headOut v76 v84 v85 := rfl

theorem pay11_eq_head (v20 v21 v22 : FVec F S28x64x256 .bf16) :
    k0_pay11 (k0_pay8 v22) (k0_pay9 v20 v21) (k0_pay10 v20 v21)
      = headTerm 96 slices_S28x64x256_o0_0_96_S28x64x32 v20 v21 v22 := rfl

theorem pay12_eq_head (v20 v21 v22 : FVec F S28x64x256 .bf16) :
    k0_pay12 v20 v21 v22 = headTerm 128 slices_S28x64x256_o0_0_128_S28x64x32 v20 v21 v22 := rfl

theorem pay13_eq_head (v20 v21 v22 : FVec F S28x64x256 .bf16) :
    k0_pay13 v20 v21 v22 = headTerm 160 slices_S28x64x256_o0_0_160_S28x64x32 v20 v21 v22 := rfl

theorem pay14_eq_slice (v22 : FVec F S28x64x256 .bf16) :
    k0_pay14 v22 = extractStridedSlice S28x64x32 ![0, 0, 192] v22 slices_S28x64x256_o0_0_192_S28x64x32 := rfl

theorem pay15_eq_headScore (v20 v21 : FVec F S28x64x256 .bf16) :
    k0_pay15 v20 v21 = headScore 192 slices_S28x64x256_o0_0_192_S28x64x32 v20 v21 := rfl

theorem pay16_eq_max (v20 v21 : FVec F S28x64x256 .bf16) :
    k0_pay16 v20 v21
      = multiReduction .maximumf [2] S28x64 (headScore 192 slices_S28x64x256_o0_0_192_S28x64x32 v20 v21)
          0xFF800000#32 reduces_S28x64x64_S28x64 (.inl rfl) rfl := rfl

/-- The head whose scores and maxima arrive as separate values: finishing them is the whole head. -/
theorem headFinish_pay14_15_16 (v20 v21 v22 : FVec F S28x64x256 .bf16) :
    headFinish (k0_pay14 v22) (k0_pay15 v20 v21) (k0_pay16 v20 v21)
      = headTerm 192 slices_S28x64x256_o0_0_192_S28x64x32 v20 v21 v22 := rfl

end Cert.WinAttn.Ker

end
-- ==== Proof.KerHeadScore.lean ====
/-
  The score stage of one attention head, read at an index, on the extended reals.

  A lane slice at offset `off` reads lane `off + d`; the batched contraction over the 32 lanes of a head, at window
  `w`, query token `tq` and key token `tk`, is the sum over `d` of query lane times key lane; the scale word multiplies
  it; and the row maximum over the key axis is the fold of `max` from the floor word over the 64 key tokens.
-/
import proofs.«143008_j49546742726934_2_alg».proof.Proof.KerHeadDef
import Idealize.ShloMosaic.PureOps.Ideal.Laws
import Idealize.ShloMosaic.Lib.Pipeline.Value

set_option synthInstance.maxSize 4096

noncomputable section

namespace Cert.WinAttn.Ker

open Idealize.ShloMosaic Idealize.ShloMosaic.ValueIdx Idealize.SL.Sem
open Cert.KernelIdeal Cert.KernelIdeal.Gen

/-! ### Layout reads, for any element type -/

/-- A 32-lane slice at lane offset `off` reads lane `off + d`. -/
theorem slice_apply {α : Type} (off : Nat) (hoff : off + 32 ≤ 256) (hs : S28x64x256.Slices ![0, 0, off] S28x64x32)
    (v : S28x64x256.Idx → α) (w : Fin 28) (t : Fin 64) (d : Fin 32) :
    extractStridedSlice S28x64x32 ![0, 0, off] v hs (ix3 w t d)
      = v (ix3 w t ⟨off + d.val, by have := d.isLt; omega⟩) := by
  refine extractStridedSlice_apply _ v hs _ _ fun a => ?_
  match a with
  | ⟨0, _⟩ => show w.val = 0 + w.val; omega
  | ⟨1, _⟩ => show t.val = 0 + t.val; omega
  | ⟨2, _⟩ => rfl

/-- A row value spread along the key axis reads the row value. -/
theorem headSpread_apply {F : FTy → Type} [FloatOps F] (m : FVec F S28x64 .f32) (w : Fin 28) (tq tk : Fin 64) :
    headSpread m (ix3 w tq tk) = m (ix2 w tq) := by
  unfold headSpread
  refine (broadcastTo_apply _ broadcasts_S28x64x1_S28x64x64 (ix3 w tq tk) (ix3 w tq 0) fun a => ?_).trans ?_
  · match a with
    | ⟨0, _⟩ => show w.val = if (28 : Nat) = 1 then 0 else w.val; rw [if_neg (by decide)]
    | ⟨1, _⟩ => show tq.val = if (64 : Nat) = 1 then 0 else tq.val; rw [if_neg (by decide)]
    | ⟨2, _⟩ => show (0 : Nat) = if (1 : Nat) = 1 then 0 else tk.val; rw [if_pos rfl]
  · refine shapeCast_apply m shapeCasts_S28x64_S28x64x1 (ix3 w tq 0) (ix2 w tq) ?_
    rw [Shape.rowMajor_val_two, Shape.rowMajor_val_three]
    show w.val * 64 + tq.val = (w.val * 64 + tq.val) * 1 + 0
    omega

/-- Inserting key token `tk` on the reduced axis of `(w, tq)` gives `(w, tq, tk)`. -/
theorem lift_key (w : Fin 28) (tq tk : Fin 64) :
    reduces_S28x64x64_S28x64.lift (ix2 w tq) tk = ix3 w tq tk :=
  funext fun a => Fin.ext (by
    match a with
    | ⟨0, _⟩ => rfl
    | ⟨1, _⟩ => rfl
    | ⟨2, _⟩ => rfl)

/-! ### The operand indices of the two batched contractions -/

/-! Scores: output `(w, tq, tk)` takes the window from the batch axis, the query token from the left operand's free
    axis, the key token from the right operand's free axis, and contracts the lane axis of both. -/

theorem scoreDot_lhs_0 (i : S28x64x64.Idx) (q : dot_S28x64x32_S28x64x32_S28x64x64_2_2_1_1_0_0.contr.Idx) : (dot_S28x64x32_S28x64x32_S28x64x64_2_2_1_1_0_0.lhsIdx i q 0).val = (i 0).val := by
  unfold DotDims.lhsIdx
  rw [dif_pos (show (0 : Fin S28x64x32.rank) ∈ dot_S28x64x32_S28x64x32_S28x64x64_2_2_1_1_0_0.lhsBatch by decide)]
  rfl
theorem scoreDot_lhs_1 (i : S28x64x64.Idx) (q : dot_S28x64x32_S28x64x32_S28x64x64_2_2_1_1_0_0.contr.Idx) : (dot_S28x64x32_S28x64x32_S28x64x64_2_2_1_1_0_0.lhsIdx i q 1).val = (i 1).val := by
  unfold DotDims.lhsIdx
  rw [dif_neg (show ¬(1 : Fin S28x64x32.rank) ∈ dot_S28x64x32_S28x64x32_S28x64x64_2_2_1_1_0_0.lhsBatch by decide),
    dif_pos (show (1 : Fin S28x64x32.rank) ∈ dot_S28x64x32_S28x64x32_S28x64x64_2_2_1_1_0_0.lhsNonContracting by decide)]
  rfl
theorem scoreDot_lhs_2 (i : S28x64x64.Idx) (q : dot_S28x64x32_S28x64x32_S28x64x64_2_2_1_1_0_0.contr.Idx) :
    (dot_S28x64x32_S28x64x32_S28x64x64_2_2_1_1_0_0.lhsIdx i q 2).val = (q ⟨0, by decide⟩).val :=
  dot_S28x64x32_S28x64x32_S28x64x64_2_2_1_1_0_0.lhsIdx_val_of_single rfl i q
theorem scoreDot_rhs_0 (i : S28x64x64.Idx) (q : dot_S28x64x32_S28x64x32_S28x64x64_2_2_1_1_0_0.contr.Idx) : (dot_S28x64x32_S28x64x32_S28x64x64_2_2_1_1_0_0.rhsIdx i q 0).val = (i 0).val := by
  unfold DotDims.rhsIdx
  rw [dif_pos (show (0 : Fin S28x64x32.rank) ∈ dot_S28x64x32_S28x64x32_S28x64x64_2_2_1_1_0_0.rhsBatch by decide)]
  rfl
theorem scoreDot_rhs_1 (i : S28x64x64.Idx) (q : dot_S28x64x32_S28x64x32_S28x64x64_2_2_1_1_0_0.contr.Idx) : (dot_S28x64x32_S28x64x32_S28x64x64_2_2_1_1_0_0.rhsIdx i q 1).val = (i 2).val := by
  unfold DotDims.rhsIdx
  rw [dif_neg (show ¬(1 : Fin S28x64x32.rank) ∈ dot_S28x64x32_S28x64x32_S28x64x64_2_2_1_1_0_0.rhsBatch by decide),
    dif_pos (show (1 : Fin S28x64x32.rank) ∈ dot_S28x64x32_S28x64x32_S28x64x64_2_2_1_1_0_0.rhsNonContracting by decide)]
  rfl
theorem scoreDot_rhs_2 (i : S28x64x64.Idx) (q : dot_S28x64x32_S28x64x32_S28x64x64_2_2_1_1_0_0.contr.Idx) :
    (dot_S28x64x32_S28x64x32_S28x64x64_2_2_1_1_0_0.rhsIdx i q 2).val = (q ⟨0, by decide⟩).val :=
  dot_S28x64x32_S28x64x32_S28x64x64_2_2_1_1_0_0.rhsIdx_val_of_single rfl i q

/-- Scores: the query operand at output `(w, tq, tk)` and lane `k` is `(w, tq, k)`. -/
theorem scoreDot_lhsIdx (w : Fin 28) (tq tk : Fin 64) (k : Fin 32) :
    dot_S28x64x32_S28x64x32_S28x64x64_2_2_1_1_0_0.lhsIdx (ix3 w tq tk) ((contrEquiv1 dot_S28x64x32_S28x64x32_S28x64x64_2_2_1_1_0_0 32 rfl rfl).symm k) = ix3 w tq k :=
  funext fun a => Fin.ext (by
    match a with
    | ⟨0, _⟩ => exact scoreDot_lhs_0 _ _
    | ⟨1, _⟩ => exact scoreDot_lhs_1 _ _
    | ⟨2, _⟩ => exact (scoreDot_lhs_2 _ _).trans (contrEquiv1_symm_val dot_S28x64x32_S28x64x32_S28x64x64_2_2_1_1_0_0 32 rfl rfl k))

/-- Scores: the key operand at output `(w, tq, tk)` and lane `k` is `(w, tk, k)`. -/
theorem scoreDot_rhsIdx (w : Fin 28) (tq tk : Fin 64) (k : Fin 32) :
    dot_S28x64x32_S28x64x32_S28x64x64_2_2_1_1_0_0.rhsIdx (ix3 w tq tk) ((contrEquiv1 dot_S28x64x32_S28x64x32_S28x64x64_2_2_1_1_0_0 32 rfl rfl).symm k) = ix3 w tk k :=
  funext fun a => Fin.ext (by
    match a with
    | ⟨0, _⟩ => exact scoreDot_rhs_0 _ _
    | ⟨1, _⟩ => exact scoreDot_rhs_1 _ _
    | ⟨2, _⟩ => exact (scoreDot_rhs_2 _ _).trans (contrEquiv1_symm_val dot_S28x64x32_S28x64x32_S28x64x64_2_2_1_1_0_0 32 rfl rfl k))

/-! Output: output `(w, tq, d)` takes the window from the batch axis, the query token from the weights' free axis,
    the lane from the values' free axis, and contracts the key-token axis of both. -/

theorem outDot_lhs_0 (i : S28x64x32.Idx) (q : dot_S28x64x64_S28x64x32_S28x64x32_2_1_1_2_0_0.contr.Idx) : (dot_S28x64x64_S28x64x32_S28x64x32_2_1_1_2_0_0.lhsIdx i q 0).val = (i 0).val := by
  unfold DotDims.lhsIdx
  rw [dif_pos (show (0 : Fin S28x64x64.rank) ∈ dot_S28x64x64_S28x64x32_S28x64x32_2_1_1_2_0_0.lhsBatch by decide)]
  rfl
theorem outDot_lhs_1 (i : S28x64x32.Idx) (q : dot_S28x64x64_S28x64x32_S28x64x32_2_1_1_2_0_0.contr.Idx) : (dot_S28x64x64_S28x64x32_S28x64x32_2_1_1_2_0_0.lhsIdx i q 1).val = (i 1).val := by
  unfold DotDims.lhsIdx
  rw [dif_neg (show ¬(1 : Fin S28x64x64.rank) ∈ dot_S28x64x64_S28x64x32_S28x64x32_2_1_1_2_0_0.lhsBatch by decide),
    dif_pos (show (1 : Fin S28x64x64.rank) ∈ dot_S28x64x64_S28x64x32_S28x64x32_2_1_1_2_0_0.lhsNonContracting by decide)]
  rfl
theorem outDot_lhs_2 (i : S28x64x32.Idx) (q : dot_S28x64x64_S28x64x32_S28x64x32_2_1_1_2_0_0.contr.Idx) :
    (dot_S28x64x64_S28x64x32_S28x64x32_2_1_1_2_0_0.lhsIdx i q 2).val = (q ⟨0, by decide⟩).val :=
  dot_S28x64x64_S28x64x32_S28x64x32_2_1_1_2_0_0.lhsIdx_val_of_single rfl i q
theorem outDot_rhs_0 (i : S28x64x32.Idx) (q : dot_S28x64x64_S28x64x32_S28x64x32_2_1_1_2_0_0.contr.Idx) : (dot_S28x64x64_S28x64x32_S28x64x32_2_1_1_2_0_0.rhsIdx i q 0).val = (i 0).val := by
  unfold DotDims.rhsIdx
  rw [dif_pos (show (0 : Fin S28x64x32.rank) ∈ dot_S28x64x64_S28x64x32_S28x64x32_2_1_1_2_0_0.rhsBatch by decide)]
  rfl
theorem outDot_rhs_1 (i : S28x64x32.Idx) (q : dot_S28x64x64_S28x64x32_S28x64x32_2_1_1_2_0_0.contr.Idx) :
    (dot_S28x64x64_S28x64x32_S28x64x32_2_1_1_2_0_0.rhsIdx i q 1).val = (q ⟨0, by decide⟩).val :=
  dot_S28x64x64_S28x64x32_S28x64x32_2_1_1_2_0_0.rhsIdx_val_of_single rfl i q
theorem outDot_rhs_2 (i : S28x64x32.Idx) (q : dot_S28x64x64_S28x64x32_S28x64x32_2_1_1_2_0_0.contr.Idx) : (dot_S28x64x64_S28x64x32_S28x64x32_2_1_1_2_0_0.rhsIdx i q 2).val = (i 2).val := by
  unfold DotDims.rhsIdx
  rw [dif_neg (show ¬(2 : Fin S28x64x32.rank) ∈ dot_S28x64x64_S28x64x32_S28x64x32_2_1_1_2_0_0.rhsBatch by decide),
    dif_pos (show (2 : Fin S28x64x32.rank) ∈ dot_S28x64x64_S28x64x32_S28x64x32_2_1_1_2_0_0.rhsNonContracting by decide)]
  rfl

/-- Output: the weight operand at output `(w, tq, d)` and key token `k` is `(w, tq, k)`. -/
theorem outDot_lhsIdx (w : Fin 28) (tq : Fin 64) (d : Fin 32) (k : Fin 64) :
    dot_S28x64x64_S28x64x32_S28x64x32_2_1_1_2_0_0.lhsIdx (ix3 w tq d) ((contrEquiv1 dot_S28x64x64_S28x64x32_S28x64x32_2_1_1_2_0_0 64 rfl rfl).symm k) = ix3 w tq k :=
  funext fun a => Fin.ext (by
    match a with
    | ⟨0, _⟩ => exact outDot_lhs_0 _ _
    | ⟨1, _⟩ => exact outDot_lhs_1 _ _
    | ⟨2, _⟩ => exact (outDot_lhs_2 _ _).trans (contrEquiv1_symm_val dot_S28x64x64_S28x64x32_S28x64x32_2_1_1_2_0_0 64 rfl rfl k))

/-- Output: the value operand at output `(w, tq, d)` and key token `k` is `(w, k, d)`. -/
theorem outDot_rhsIdx (w : Fin 28) (tq : Fin 64) (d : Fin 32) (k : Fin 64) :
    dot_S28x64x64_S28x64x32_S28x64x32_2_1_1_2_0_0.rhsIdx (ix3 w tq d) ((contrEquiv1 dot_S28x64x64_S28x64x32_S28x64x32_2_1_1_2_0_0 64 rfl rfl).symm k) = ix3 w k d :=
  funext fun a => Fin.ext (by
    match a with
    | ⟨0, _⟩ => exact outDot_rhs_0 _ _
    | ⟨1, _⟩ => exact (outDot_rhs_1 _ _).trans (contrEquiv1_symm_val dot_S28x64x64_S28x64x32_S28x64x32_2_1_1_2_0_0 64 rfl rfl k)
    | ⟨2, _⟩ => exact outDot_rhs_2 _ _)

/-! ### Scores and their row maxima -/

/-- The head's scores at `(w, tq, tk)`: the 32-lane product sum of query token `tq` and key token `tk`, scaled. -/
theorem headScore_apply (off : Nat) (hoff : off + 32 ≤ 256) (hs : S28x64x256.Slices ![0, 0, off] S28x64x32)
    (v20 v21 : FVec Ideal S28x64x256 .bf16) (w : Fin 28) (tq tk : Fin 64) :
    headScore (F := Ideal) off hs v20 v21 (ix3 w tq tk)
      = score (fun t d' => v20 (ix3 w t ⟨off + d'.val, by have := d'.isLt; omega⟩))
          (fun t d' => v21 (ix3 w t ⟨off + d'.val, by have := d'.isLt; omega⟩)) tq tk := by
  unfold headScore score
  refine (mulf_apply _ _ _).trans (congrArg₂ (· * ·) ?_ rfl)
  refine (Ideal.matmul_constant_zero_apply _ none _ _ _).trans ?_
  rw [← Equiv.sum_comp (contrEquiv1 dot_S28x64x32_S28x64x32_S28x64x64_2_2_1_1_0_0 32 rfl rfl).symm]
  refine Finset.sum_congr rfl fun k _ => ?_
  exact congrArg₂ (· * ·)
    ((congrArg _ (scoreDot_lhsIdx w tq tk k)).trans (slice_apply off hoff hs v20 w tq k))
    ((congrArg _ (scoreDot_rhsIdx w tq tk k)).trans (slice_apply off hoff hs v21 w tk k))

/-- The row maximum of a score array at `(w, tq)`: the fold of `max` from the floor word over the key tokens. -/
theorem rowMax_apply (s : FVec Ideal S28x64x64 .f32) (w : Fin 28) (tq : Fin 64) :
    multiReduction (F := Ideal) .maximumf [2] S28x64 s 0xFF800000#32 reduces_S28x64x64_S28x64 (.inl rfl) rfl (ix2 w tq)
      = rowMax (fun tk => s (ix3 w tq tk)) := by
  unfold rowMax
  refine (Ideal.multiReduction_maximumf_single s _ reduces_S28x64x64_S28x64 _ _ (ix2 w tq)).trans ?_
  exact congrArg (fun f => Finset.fold max floorW f (Finset.univ : Finset (Fin 64)))
    (funext fun k => congrArg s (lift_key w tq k))

theorem headMax_apply (s : FVec Ideal S28x64x64 .f32) (w : Fin 28) (tq : Fin 64) :
    headMax s (ix2 w tq) = rowMax (fun tk => s (ix3 w tq tk)) := rowMax_apply s w tq

/-- The row maximum of the head's scores is the row maximum of the specification's scores. -/
theorem headScore_rowMax (off : Nat) (hoff : off + 32 ≤ 256) (hs : S28x64x256.Slices ![0, 0, off] S28x64x32)
    (v20 v21 : FVec Ideal S28x64x256 .bf16) (w : Fin 28) (tq : Fin 64) :
    multiReduction (F := Ideal) .maximumf [2] S28x64 (headScore off hs v20 v21) 0xFF800000#32
        reduces_S28x64x64_S28x64 (.inl rfl) rfl (ix2 w tq)
      = rowMax (score (fun t d' => v20 (ix3 w t ⟨off + d'.val, by have := d'.isLt; omega⟩))
          (fun t d' => v21 (ix3 w t ⟨off + d'.val, by have := d'.isLt; omega⟩)) tq) :=
  (rowMax_apply _ w tq).trans (congrArg rowMax (funext fun tk => headScore_apply off hoff hs v20 v21 w tq tk))

end Cert.WinAttn.Ker

end
-- ==== Proof.KerHead.lean ====
/-
  One attention head of the kernel body, read at an index, on the extended reals.

  From the scores `s` and row values `m`: the weight at `(w, tq, tk)` is `exp (s − m)`, its row sum is the sum over
  the 64 key tokens, and the output at `(w, tq, d)` is the sum over key tokens of weight over row sum times the value
  lane. Narrowing to the 16-bit format is the identity on the extended reals. With the scores and maxima of the
  score stage this is the specification's `attn` of the three lane slices.
-/
import proofs.«143008_j49546742726934_2_alg».proof.Proof.KerHeadScore

set_option synthInstance.maxSize 4096

noncomputable section

namespace Cert.WinAttn.Ker

open Idealize.ShloMosaic Idealize.ShloMosaic.ValueIdx Idealize.SL.Sem
open Cert.KernelIdeal Cert.KernelIdeal.Gen

/-- The weight at `(w, tq, tk)`: the exponential of the score less the row value. -/
theorem headExp_apply (s : FVec Ideal S28x64x64 .f32) (m : FVec Ideal S28x64 .f32) (w : Fin 28) (tq tk : Fin 64) :
    headExp s m (ix3 w tq tk) = Ideal.exp (s (ix3 w tq tk) - m (ix2 w tq)) := by
  unfold headExp
  show Ideal.exp (s (ix3 w tq tk) - headSpread m (ix3 w tq tk)) = _
  rw [headSpread_apply]

/-- The row sum at `(w, tq)`: the sum over the key tokens. -/
theorem headSum_apply (e : FVec Ideal S28x64x64 .f32) (w : Fin 28) (tq : Fin 64) :
    headSum e (ix2 w tq) = ∑ tk : Fin 64, e (ix3 w tq tk) := by
  unfold headSum
  refine (Ideal.multiReduction_add_single e _ reduces_S28x64x64_S28x64 _ _ (ix2 w tq)).trans ?_
  exact Finset.sum_congr rfl fun k _ => congrArg e (lift_key w tq k)

/-- The output at `(w, tq, d)`: the sum over key tokens of weight over row value, times the value lane. -/
theorem headOut_apply (vh : FVec Ideal S28x64x32 .bf16) (e : FVec Ideal S28x64x64 .f32) (z : FVec Ideal S28x64 .f32)
    (w : Fin 28) (tq : Fin 64) (d : Fin 32) :
    headOut vh e z (ix3 w tq d) = ∑ tk : Fin 64, Ideal.div (e (ix3 w tq tk)) (z (ix2 w tq)) * vh (ix3 w tk d) := by
  unfold headOut
  refine (Ideal.matmul_constant_zero_apply _ none _ _ _).trans ?_
  rw [← Equiv.sum_comp (contrEquiv1 dot_S28x64x64_S28x64x32_S28x64x32_2_1_1_2_0_0 64 rfl rfl).symm]
  refine Finset.sum_congr rfl fun k _ => ?_
  refine congrArg₂ (· * ·) ?_ (congrArg vh (outDot_rhsIdx w tq d k))
  refine (congrArg _ (outDot_lhsIdx w tq d k)).trans ?_
  show Ideal.div (e (ix3 w tq k)) (headSpread z (ix3 w tq k)) = _
  rw [headSpread_apply]

/-- From scores and row values to the head's output, at `(w, tq, d)`. -/
theorem headFinish_apply (vh : FVec Ideal S28x64x32 .bf16) (s : FVec Ideal S28x64x64 .f32) (m : FVec Ideal S28x64 .f32)
    (w : Fin 28) (tq : Fin 64) (d : Fin 32) :
    headFinish vh s m (ix3 w tq d)
      = ∑ tk : Fin 64, Ideal.div (Ideal.exp (s (ix3 w tq tk) - m (ix2 w tq)))
          (∑ tk' : Fin 64, Ideal.exp (s (ix3 w tq tk') - m (ix2 w tq))) * vh (ix3 w tk d) := by
  unfold headFinish
  refine (headOut_apply _ _ _ w tq d).trans ?_
  refine Finset.sum_congr rfl fun tk _ => ?_
  refine congrArg₂ (· * ·) (congrArg₂ Ideal.div (headExp_apply s m w tq tk) ?_) rfl
  exact (headSum_apply _ w tq).trans (Finset.sum_congr rfl fun tk' _ => headExp_apply s m w tq tk')

/-- The whole head at lane offset `off`, at `(w, tq, d)`: the specification's attention of the three lane slices. -/
theorem headTerm_apply (off : Nat) (hoff : off + 32 ≤ 256) (hs : S28x64x256.Slices ![0, 0, off] S28x64x32)
    (v20 v21 v22 : FVec Ideal S28x64x256 .bf16) (w : Fin 28) (tq : Fin 64) (d : Fin 32) :
    headTerm (F := Ideal) off hs v20 v21 v22 (ix3 w tq d)
      = Cert.WinAttn.attn (fun t d' => v20 (ix3 w t ⟨off + d'.val, by have := d'.isLt; omega⟩))
          (fun t d' => v21 (ix3 w t ⟨off + d'.val, by have := d'.isLt; omega⟩))
          (fun t d' => v22 (ix3 w t ⟨off + d'.val, by have := d'.isLt; omega⟩)) tq d := by
  unfold headTerm
  refine (headFinish_apply _ _ _ w tq d).trans ?_
  unfold attn expo
  have hsc := headScore_apply off hoff hs v20 v21 w tq
  have hmx := headScore_rowMax off hoff hs v20 v21 w tq
  refine Finset.sum_congr rfl fun tk _ => ?_
  refine congrArg₂ (· * ·) (congrArg₂ Ideal.div ?_ ?_) (slice_apply off hoff hs v22 w tk d)
  · exact congrArg₂ (fun a b => Ideal.exp (a - b)) (hsc tk) hmx
  · exact Finset.sum_congr rfl fun tk' _ => congrArg₂ (fun a b => Ideal.exp (a - b)) (hsc tk') hmx

end Cert.WinAttn.Ker

end
-- ==== Proof.KerTokens.lean ====
/-
  The kernel's window partition, read at an index. A grid point holds one strip of 8 image rows: the block
  [1, 256, 8, 224] (channel, row in strip, column). The body re-lays it as a matrix of 1792 tokens × 256 channels,
  token row n = 64·nw + t standing for window nw of the strip and token t = 8·hi + wj inside it, i.e. the pixel
  (hi, 8·nw + wj) of the strip.
-/
import proofs.«143008_j49546742726934_2_alg».proof.Proof.Gen.KernelIdeal.Skeleton
import proofs.«143008_j49546742726934_2_alg».proof.Proof.Spec
import Idealize.ShloMosaic.Lib.Pipeline.Value
import Idealize.ShloMosaic.Lib.ValueIdx
import Idealize.ShloMosaic.PureOps.Ideal.Laws

noncomputable section

namespace Cert.WinAttn.Ker

open Idealize.ShloMosaic Idealize.ShloMosaic.ValueIdx Cert.KernelIdeal Cert.KernelIdeal.Gen

/-- Token `t` of window `nw` of the strip at channel `c` is the strip's pixel `(t / 8, 8·nw + t mod 8)`. -/
theorem tokens_apply (v0 : Vec Ideal S1x256x8x224 .f32) (nw : Fin 28) (t : Fin 64) (c : Fin 256) :
    k0_pay1 (F := Ideal) v0 (ix2 ⟨64 * nw.val + t.val, by have := nw.isLt; have := t.isLt; omega⟩ c)
      = v0 (ix4 (0 : Fin 1) c ⟨t.val / 8, by have := t.isLt; omega⟩ ⟨8 * nw.val + t.val % 8, by have := nw.isLt; omega⟩) := by
  have hnw := nw.isLt; have ht := t.isLt; have hc := c.isLt
  unfold k0_pay1
  refine (truncf_apply (φ := .f32) (ψ := .bf16) _ bitsLt_bf16_f32 _).trans ?_
  -- the token matrix is the [28, 8, 8, 256] array (window, row, column, channel) flattened
  refine (shapeCast_apply _ _ _ (ix4 nw (⟨t.val / 8, by omega⟩ : Fin 8) (⟨t.val % 8, by omega⟩ : Fin 8) c) ?_).trans ?_
  · rw [Shape.rowMajor_val_four, Shape.rowMajor_val_two]
    show ((nw.val * 8 + t.val / 8) * 8 + t.val % 8) * 256 + c.val = (64 * nw.val + t.val) * 256 + c.val
    omega
  -- windows and rows swapped
  refine (transpose_apply _ _ _ _ (ix4 (⟨t.val / 8, by omega⟩ : Fin 8) nw (⟨t.val % 8, by omega⟩ : Fin 8) c)
    (fun b => match b with | ⟨0, _⟩ => rfl | ⟨1, _⟩ => rfl | ⟨2, _⟩ => rfl | ⟨3, _⟩ => rfl)).trans ?_
  -- (window, column in window) is the strip's column
  refine (shapeCast_apply _ _ _ (ix3 (⟨t.val / 8, by omega⟩ : Fin 8) (⟨8 * nw.val + t.val % 8, by omega⟩ : Fin 224) c) ?_).trans ?_
  · rw [Shape.rowMajor_val_three, Shape.rowMajor_val_four]
    show (t.val / 8 * 224 + (8 * nw.val + t.val % 8)) * 256 + c.val = ((t.val / 8 * 28 + nw.val) * 8 + t.val % 8) * 256 + c.val
    omega
  -- columns and channels swapped, then rows and channels
  refine (transpose_apply _ _ _ _ (ix3 (⟨t.val / 8, by omega⟩ : Fin 8) c (⟨8 * nw.val + t.val % 8, by omega⟩ : Fin 224))
    (fun b => match b with | ⟨0, _⟩ => rfl | ⟨1, _⟩ => rfl | ⟨2, _⟩ => rfl)).trans ?_
  refine (transpose_apply _ _ _ _ (ix3 c (⟨t.val / 8, by omega⟩ : Fin 8) (⟨8 * nw.val + t.val % 8, by omega⟩ : Fin 224))
    (fun b => match b with | ⟨0, _⟩ => rfl | ⟨1, _⟩ => rfl | ⟨2, _⟩ => rfl)).trans ?_
  -- the leading unit axis
  refine shapeCast_apply _ _ _ _ ?_
  rw [Shape.rowMajor_val_four, Shape.rowMajor_val_three]
  show ((0 * 256 + c.val) * 8 + t.val / 8) * 224 + (8 * nw.val + t.val % 8) = (c.val * 8 + t.val / 8) * 224 + (8 * nw.val + t.val % 8)
  omega

end Cert.WinAttn.Ker

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.KerProj.lean ====
/-
  The three projections of the strip's tokens. Each is the token matrix (1792 × 256) times one staged weight block
  (256 × 256), re-laid as [28 windows, 64 tokens, 256 lanes]; the weight block staged for part p is the transpose of
  rows 256·p … 256·p + 255 of w_qkv, so lane o of part p is the specification's qkv at output row 256·p + o.
-/
import proofs.«143008_j49546742726934_2_alg».proof.Proof.Gen.KernelIdeal.Skeleton
import proofs.«143008_j49546742726934_2_alg».proof.Proof.Spec
import proofs.«143008_j49546742726934_2_alg».proof.Proof.KerTokens
import proofs.«143008_j49546742726934_2_alg».proof.Proof.LibMatProduct
import Idealize.ShloMosaic.Lib.Pipeline.Value
import Idealize.ShloMosaic.Lib.ValueIdx
import Idealize.ShloMosaic.PureOps.Ideal.Laws

noncomputable section

namespace Cert.WinAttn.Ker

open Idealize.ShloMosaic Idealize.ShloMosaic.ValueIdx Cert.KernelIdeal Cert.KernelIdeal.Gen

/-- Lane `o` of token `t` of window `nw`: the token's channels against column `o` of the staged weight block. -/
theorem proj_apply (v0 : Vec Ideal S1x256x8x224 .f32) (v8 : Vec Ideal S256x256 .bf16) (nw : Fin 28) (t : Fin 64) (o : Fin 256) :
    k0_pay2 (F := Ideal) v0 v8 (ix3 nw t o)
      = ∑ c : Fin 256, k0_pay1 (F := Ideal) v0 (ix2 ⟨64 * nw.val + t.val, by have := nw.isLt; have := t.isLt; omega⟩ c) * v8 (ix2 c o) := by
  have hnw := nw.isLt; have ht := t.isLt
  unfold k0_pay2
  refine (shapeCast_apply _ _ _ (ix2 (⟨64 * nw.val + t.val, by omega⟩ : Fin 1792) o) ?_).trans ?_
  · rw [Shape.rowMajor_val_two, Shape.rowMajor_val_three]
    show (64 * nw.val + t.val) * 256 + o.val = (nw.val * 64 + t.val) * 256 + o.val
    omega
  refine (truncf_apply (φ := .f32) (ψ := .bf16) _ bitsLt_bf16_f32 _).trans ?_
  rw [shapeCast_self]
  exact Cert.LibMatProduct.matmul_zero_apply _ none rfl rfl rfl rfl rfl rfl _ _ _ _

/-- The key and value projections are the same term on their own weight blocks. -/
theorem pay3_eq_pay2 {F : FTy → Type} [FloatOps F] (v0 : Vec F S1x256x8x224 .f32) (v12 : Vec F S256x256 .bf16) : k0_pay3 v0 v12 = k0_pay2 v0 v12 := rfl
theorem pay4_eq_pay2 {F : FTy → Type} [FloatOps F] (v0 : Vec F S1x256x8x224 .f32) (v16 : Vec F S256x256 .bf16) : k0_pay4 v0 v16 = k0_pay2 v0 v16 := rfl

/-- With the strip's block read off the image `X` at batch entry `b` and strip `r`, and the weight block read off
    `W` = w_qkv as the transposed rows of part `p`, lane `32·h + d` of a projection is the specification's `part p h`. -/
theorem proj_eq_part (X : (⟨4, ![4, 256, 224, 224]⟩ : Shape).Idx → EReal) (W : (⟨2, ![768, 256]⟩ : Shape).Idx → EReal)
    (b : Fin 4) (r : Fin 28) (p : Fin 3)
    (v0 : Vec Ideal S1x256x8x224 .f32) (v8 : Vec Ideal S256x256 .bf16)
    (hx : ∀ (c : Fin 256) (hi : Fin 8) (wp : Fin 224),
      v0 (ix4 (0 : Fin 1) c hi wp) = X (ix4 b c ⟨8 * r.val + hi.val, by have := r.isLt; have := hi.isLt; omega⟩ wp))
    (hw : ∀ (c : Fin 256) (o : Fin 256), v8 (ix2 c o) = W (ix2 ⟨256 * p.val + o.val, by have := p.isLt; have := o.isLt; omega⟩ c))
    (nw : Fin 28) (t : Fin 64) (h : Fin 8) (d : Fin 32) :
    k0_pay2 (F := Ideal) v0 v8 (ix3 nw t ⟨32 * h.val + d.val, by have := h.isLt; have := d.isLt; omega⟩)
      = part X W b r nw p h t d := by
  rw [proj_apply]
  unfold part qkv
  refine Finset.sum_congr rfl fun c _ => ?_
  rw [tokens_apply, hx, hw]
  unfold tok
  refine congrArg (X _ * W ·) ?_
  exact congrArg (fun o => ix2 o c) (Fin.ext (by show 256 * p.val + (32 * h.val + d.val) = 256 * p.val + 32 * h.val + d.val; omega))

end Cert.WinAttn.Ker

end
-- ==== Proof.KerStrip.lean ====
/-
  The end of the kernel body. The eight heads' outputs [28, 64, 32] are laid side by side along the lanes into
  [28, 64, 256], flattened to the 1792 × 256 token matrix, multiplied by the staged output weight block, the bias row
  added, and the result re-laid as the strip [1, 256, 8, 224]: pixel (hi, 8·nw + wj) of the strip at channel c is row
  64·nw + 8·hi + wj, column c, of that matrix — the window partition run backwards.
-/
import proofs.«143008_j49546742726934_2_alg».proof.Proof.Gen.KernelIdeal.Skeleton
import proofs.«143008_j49546742726934_2_alg».proof.Proof.Spec
import proofs.«143008_j49546742726934_2_alg».proof.Proof.LibMatProduct
import Idealize.ShloMosaic.Lib.ValueLayout
import Idealize.ShloMosaic.Lib.Pipeline.Value
import Idealize.ShloMosaic.Lib.ValueIdx
import Idealize.ShloMosaic.PureOps.Ideal.Laws

noncomputable section

namespace Cert.WinAttn.Ker

open Idealize.ShloMosaic Idealize.ShloMosaic.ValueIdx Cert.KernelIdeal Cert.KernelIdeal.Gen

variable {F : FTy → Type} [FloatOps F]

/-- The heads side by side along the lanes. -/
def joined (o0 o1 o2 o3 o4 o5 o6 o7 : FVec F S28x64x32 .f32) : FVec F S28x64x256 .f32 :=
  concatenate S28x64x256 2 [⟨S28x64x32, o0⟩, ⟨S28x64x32, o1⟩, ⟨S28x64x32, o2⟩, ⟨S28x64x32, o3⟩, ⟨S28x64x32, o4⟩, ⟨S28x64x32, o5⟩, ⟨S28x64x32, o6⟩, ⟨S28x64x32, o7⟩] concatenates_S28x64x32_S28x64x32_S28x64x32_S28x64x32_S28x64x32_S28x64x32_S28x64x32_S28x64x32_S28x64x256_d2

/-- From the joined heads to the stored strip: output projection, bias, and the window partition undone. -/
def strip (J : FVec F S28x64x256 .f32) (v162 : Vec F S256x256 .bf16) (v165 : Vec F S256 .f32) : FVec F S1x256x8x224 .f32 :=
  have v160 : FVec F S1792x256 .f32 := shapeCast S1792x256 J shapeCasts_S28x64x256_S1792x256
  have v161 : FVec F S1792x256 .bf16 := truncf .bf16 v160 bitsLt_bf16_f32
  have v163 : FVec F S256x256 .bf16 := shapeCast S256x256 v162 shapeCasts_S256x256_S256x256
  have cst_53 : FVec F S1792x256 .f32 := constant S1792x256 .f32 0x00000000#32
  have v164 : FVec F S1792x256 .f32 := matmul dot_S1792x256_S256x256_S1792x256_1_0_0_1_n_n none v161 v163 cst_53
  have v166 : FVec F S1x256 .f32 := shapeCast S1x256 v165 shapeCasts_S256_S1x256
  have v167 : FVec F S1792x256 .f32 := broadcastTo S1792x256 v166 broadcasts_S1x256_S1792x256
  have v168 : FVec F S1792x256 .f32 := addf v164 v167
  have v169 : FVec F S28x8x8x256 .f32 := shapeCast S28x8x8x256 v168 shapeCasts_S1792x256_S28x8x8x256
  have v170 : FVec F S8x28x8x256 .f32 := transpose S8x28x8x256 [1, 0, 2, 3] v169 transposes_S28x8x8x256_p1_0_2_3_S8x28x8x256
  have v171 : FVec F S8x224x256 .f32 := shapeCast S8x224x256 v170 shapeCasts_S8x28x8x256_S8x224x256
  have v172 : FVec F S8x256x224 .f32 := transpose S8x256x224 [0, 2, 1] v171 transposes_S8x224x256_p0_2_1_S8x256x224
  have v173 : FVec F S256x8x224 .f32 := transpose S256x8x224 [1, 0, 2] v172 transposes_S8x256x224_p1_0_2_S256x8x224
  have v176 : FVec F S1x256x8x224 .f32 := shapeCast S1x256x8x224 v173 shapeCasts_S256x8x224_S1x256x8x224
  v176

/-- The strip's pixel `(hi, 8·nw + wj)` at channel `c`: token `8·hi + wj` of window `nw` of the joined heads against
    column `c` of the staged output weights, plus the bias. -/
theorem strip_apply (J : FVec Ideal S28x64x256 .f32) (v162 : Vec Ideal S256x256 .bf16) (v165 : Vec Ideal S256 .f32)
    (c : Fin 256) (hi : Fin 8) (nw : Fin 28) (wj : Fin 8) :
    strip (F := Ideal) J v162 v165 (ix4 (0 : Fin 1) c hi ⟨8 * nw.val + wj.val, by have := nw.isLt; have := wj.isLt; omega⟩)
      = (∑ c' : Fin 256, J (ix3 nw ⟨8 * hi.val + wj.val, by have := hi.isLt; have := wj.isLt; omega⟩ c') * v162 (ix2 c' c)) + v165 (ix1 c) := by
  have hhi := hi.isLt; have hnw := nw.isLt; have hwj := wj.isLt; have hc := c.isLt
  unfold strip
  refine (shapeCast_apply _ _ _ (ix3 c hi (⟨8 * nw.val + wj.val, by omega⟩ : Fin 224)) ?_).trans ?_
  · rw [Shape.rowMajor_val_three, Shape.rowMajor_val_four]
    show (c.val * 8 + hi.val) * 224 + (8 * nw.val + wj.val) = ((0 * 256 + c.val) * 8 + hi.val) * 224 + (8 * nw.val + wj.val)
    omega
  refine (transpose_apply _ _ _ _ (ix3 hi c (⟨8 * nw.val + wj.val, by omega⟩ : Fin 224))
    (fun b => match b with | ⟨0, _⟩ => rfl | ⟨1, _⟩ => rfl | ⟨2, _⟩ => rfl)).trans ?_
  refine (transpose_apply _ _ _ _ (ix3 hi (⟨8 * nw.val + wj.val, by omega⟩ : Fin 224) c)
    (fun b => match b with | ⟨0, _⟩ => rfl | ⟨1, _⟩ => rfl | ⟨2, _⟩ => rfl)).trans ?_
  refine (shapeCast_apply _ _ _ (ix4 hi nw wj c) ?_).trans ?_
  · rw [Shape.rowMajor_val_four, Shape.rowMajor_val_three]
    show ((hi.val * 28 + nw.val) * 8 + wj.val) * 256 + c.val = (hi.val * 224 + (8 * nw.val + wj.val)) * 256 + c.val
    omega
  refine (transpose_apply _ _ _ _ (ix4 nw hi wj c)
    (fun b => match b with | ⟨0, _⟩ => rfl | ⟨1, _⟩ => rfl | ⟨2, _⟩ => rfl | ⟨3, _⟩ => rfl)).trans ?_
  refine (shapeCast_apply _ _ _ (ix2 (⟨64 * nw.val + (8 * hi.val + wj.val), by omega⟩ : Fin 1792) c) ?_).trans ?_
  · rw [Shape.rowMajor_val_two, Shape.rowMajor_val_four]
    show (64 * nw.val + (8 * hi.val + wj.val)) * 256 + c.val = ((nw.val * 8 + hi.val) * 8 + wj.val) * 256 + c.val
    omega
  refine (addf_apply _ _ _).trans ?_
  refine congrArg₂ (· + ·) ?_ ?_
  · -- the product with the staged output weights
    rw [shapeCast_self]
    refine (Cert.LibMatProduct.matmul_zero_apply (φ₁ := .bf16) (φ₂ := .bf16) _ none rfl rfl rfl rfl rfl rfl _ _ _ _).trans ?_
    refine Finset.sum_congr rfl fun c' _ => ?_
    refine congrArg (· * v162 (ix2 c' c)) ?_
    refine (truncf_apply (φ := .f32) (ψ := .bf16) _ bitsLt_bf16_f32 _).trans ?_
    refine shapeCast_apply _ _ _ (ix3 nw (⟨8 * hi.val + wj.val, by omega⟩ : Fin 64) c') ?_
    rw [Shape.rowMajor_val_three, Shape.rowMajor_val_two]
    show (nw.val * 64 + (8 * hi.val + wj.val)) * 256 + c'.val = (64 * nw.val + (8 * hi.val + wj.val)) * 256 + c'.val
    omega
  · -- the bias row under every token
    refine (broadcastTo_apply _ _ _ (ix2 (0 : Fin 1) c) ?_).trans ?_
    · intro a
      match a with
      | ⟨0, _⟩ => rfl
      | ⟨1, _⟩ => rfl
    refine shapeCast_apply _ _ _ (ix1 c) ?_
    rw [Shape.rowMajor_val_one, Shape.rowMajor_val_two]
    show c.val = 0 * 256 + c.val
    omega

end Cert.WinAttn.Ker

end
-- ==== Proof.KerJoined.lean ====
/-
  The eight heads' outputs laid side by side along the lanes: lane c' of the joined array is lane c' mod 32 of
  head c' / 32.
-/
import proofs.«143008_j49546742726934_2_alg».proof.Proof.Gen.KernelIdeal.Skeleton
import proofs.«143008_j49546742726934_2_alg».proof.Proof.Spec
import proofs.«143008_j49546742726934_2_alg».proof.Proof.KerStrip
import Idealize.ShloMosaic.Lib.Pipeline.Value
import Idealize.ShloMosaic.Lib.ValueIdx
import Idealize.ShloMosaic.PureOps.Ideal.Laws

noncomputable section

namespace Cert.WinAttn.Ker

open Idealize.ShloMosaic Idealize.ShloMosaic.ValueIdx Cert.KernelIdeal Cert.KernelIdeal.Gen

/-- Head `h` of eight. -/
def pick (o0 o1 o2 o3 o4 o5 o6 o7 : FVec Ideal S28x64x32 .f32) : Fin 8 → FVec Ideal S28x64x32 .f32 :=
  fun h => match h with
    | ⟨0, _⟩ => o0 | ⟨1, _⟩ => o1 | ⟨2, _⟩ => o2 | ⟨3, _⟩ => o3 | ⟨4, _⟩ => o4 | ⟨5, _⟩ => o5 | ⟨6, _⟩ => o6 | ⟨7, _⟩ => o7

/-- Lane `c'` of the joined heads is lane `c' mod 32` of head `c' / 32`. -/
theorem joined_apply (o0 o1 o2 o3 o4 o5 o6 o7 : FVec Ideal S28x64x32 .f32) (nw : Fin 28) (t : Fin 64) (c' : Fin 256) :
    joined (F := Ideal) o0 o1 o2 o3 o4 o5 o6 o7 (ix3 nw t c')
      = pick o0 o1 o2 o3 o4 o5 o6 o7 ⟨c'.val / 32, by have := c'.isLt; omega⟩ (ix3 nw t ⟨c'.val % 32, by omega⟩) := by
  have hc := c'.isLt
  unfold joined
  exact concatenate_ofFn_apply (t := S28x64x256) (s₁ := S28x64x32) 2 (pick o0 o1 o2 o3 o4 o5 o6 o7) _ rfl 32 rfl
    (ix3 nw t c') ⟨c'.val / 32, by omega⟩ rfl (ix3 nw t ⟨c'.val % 32, by omega⟩) rfl
    (fun b hb => match b with
      | ⟨0, _⟩ => rfl
      | ⟨1, _⟩ => rfl
      | ⟨2, _⟩ => absurd rfl hb)

end Cert.WinAttn.Ker

end
-- ==== Proof.KerBody.lean ====
/-
  The whole kernel body at one grid point, read at an index. From the point's input blocks — the strip of 8 image
  rows, the three transposed weight blocks of the joint projection, the transposed output weights and the bias — the
  body stores one strip [1, 256, 8, 224]. Its pixel (hi, 8·nw + wj) at channel ch is the specification's output of
  window nw of the strip at token 8·hi + wj: the tokens are the strip's pixels, each projection lane is a row of
  w_qkv against the token, each head is the softmax-weighted sum over the window's 64 tokens, and the stored strip is
  the projected, biased token matrix laid back over the pixels.
-/
import proofs.«143008_j49546742726934_2_alg».proof.Proof.Gen.KernelIdeal.Skeleton
import proofs.«143008_j49546742726934_2_alg».proof.Proof.Spec
import proofs.«143008_j49546742726934_2_alg».proof.Proof.Gen.KernelIdeal.Frame
import proofs.«143008_j49546742726934_2_alg».proof.Proof.KerHead
import proofs.«143008_j49546742726934_2_alg».proof.Proof.KerProj
import proofs.«143008_j49546742726934_2_alg».proof.Proof.KerStrip
import proofs.«143008_j49546742726934_2_alg».proof.Proof.KerJoined
import Idealize.ShloMosaic.Lib.Pipeline.Value
import Idealize.ShloMosaic.Lib.ValueIdx
import Idealize.ShloMosaic.PureOps.Ideal.Laws

noncomputable section

namespace Cert.WinAttn.Ker

open Idealize.ShloMosaic Idealize.ShloMosaic.ValueIdx Cert.KernelIdeal Cert.KernelIdeal.Gen

section Terms
variable {F : FTy → Type} [FloatOps F]

/-- The value the body stores, as a term of the six loaded blocks. -/
def bodyTerm (x0 : Vec F S1x256x8x224 .f32) (x1 x2 x3 x4 : Vec F S256x256 .bf16) (x5 : Vec F S256 .f32) : FVec F S1x256x8x224 .f32 :=
  k0_pay17 (k0_pay2 x0 x1) (k0_pay3 x0 x2) (k0_pay4 x0 x3) (k0_pay5 x0 x1 x2 x3)
    (k0_pay6 (k0_pay2 x0 x1) (k0_pay3 x0 x2) (k0_pay4 x0 x3)) (k0_pay7 (k0_pay2 x0 x1) (k0_pay3 x0 x2) (k0_pay4 x0 x3))
    (k0_pay11 (k0_pay8 (k0_pay4 x0 x3)) (k0_pay9 (k0_pay2 x0 x1) (k0_pay3 x0 x2)) (k0_pay10 (k0_pay2 x0 x1) (k0_pay3 x0 x2)))
    (k0_pay12 (k0_pay2 x0 x1) (k0_pay3 x0 x2) (k0_pay4 x0 x3)) (k0_pay13 (k0_pay2 x0 x1) (k0_pay3 x0 x2) (k0_pay4 x0 x3))
    (k0_pay14 (k0_pay4 x0 x3)) (k0_pay15 (k0_pay2 x0 x1) (k0_pay3 x0 x2)) (k0_pay16 (k0_pay2 x0 x1) (k0_pay3 x0 x2)) x4 x5

/-- What the output window's buffer holds after the body is that one stored value. -/
theorem out0_6_eq (x0 : Vec F S1x256x8x224 .f32) (x1 x2 x3 x4 : Vec F S256x256 .bf16) (x5 : Vec F S256 .f32) :
    out0_6 x0 x1 x2 x3 x4 x5
      = View.canon [⟨r0_0, bodyTerm (View.ld x0 r0_0) (View.ld x1 r0_1) (View.ld x2 r0_1) (View.ld x3 r0_1) (View.ld x4 r0_1) (View.ld x5 r0_2)⟩] := rfl

/-- The stored value is the eight heads over the three projections, joined, projected and laid back as a strip. -/
theorem bodyTerm_eq (x0 : Vec F S1x256x8x224 .f32) (x1 x2 x3 x4 : Vec F S256x256 .bf16) (x5 : Vec F S256 .f32) :
    bodyTerm x0 x1 x2 x3 x4 x5
      = strip (joined
          (headTerm 0 slices_S28x64x256_o0_0_0_S28x64x32 (k0_pay2 x0 x1) (k0_pay2 x0 x2) (k0_pay2 x0 x3))
          (headTerm 32 slices_S28x64x256_o0_0_32_S28x64x32 (k0_pay2 x0 x1) (k0_pay2 x0 x2) (k0_pay2 x0 x3))
          (headTerm 64 slices_S28x64x256_o0_0_64_S28x64x32 (k0_pay2 x0 x1) (k0_pay2 x0 x2) (k0_pay2 x0 x3))
          (headTerm 96 slices_S28x64x256_o0_0_96_S28x64x32 (k0_pay2 x0 x1) (k0_pay2 x0 x2) (k0_pay2 x0 x3))
          (headTerm 128 slices_S28x64x256_o0_0_128_S28x64x32 (k0_pay2 x0 x1) (k0_pay2 x0 x2) (k0_pay2 x0 x3))
          (headTerm 160 slices_S28x64x256_o0_0_160_S28x64x32 (k0_pay2 x0 x1) (k0_pay2 x0 x2) (k0_pay2 x0 x3))
          (headTerm 192 slices_S28x64x256_o0_0_192_S28x64x32 (k0_pay2 x0 x1) (k0_pay2 x0 x2) (k0_pay2 x0 x3))
          (headTerm 224 slices_S28x64x256_o0_0_224_S28x64x32 (k0_pay2 x0 x1) (k0_pay2 x0 x2) (k0_pay2 x0 x3))) x4 x5 := rfl

end Terms

/-- Attention of pointwise equal queries, keys and values is equal. -/
theorem attn_congr {q q' k k' v v' : Fin 64 → Fin 32 → EReal} (hq : ∀ t d, q t d = q' t d) (hk : ∀ t d, k t d = k' t d)
    (hv : ∀ t d, v t d = v' t d) (tq : Fin 64) (d : Fin 32) : attn q k v tq d = attn q' k' v' tq d := by
  rw [show q = q' from funext fun t => funext fun d => hq t d, show k = k' from funext fun t => funext fun d => hk t d,
    show v = v' from funext fun t => funext fun d => hv t d]

section Point
variable (X : (⟨4, ![4, 256, 224, 224]⟩ : Shape).Idx → EReal) (W : (⟨2, ![768, 256]⟩ : Shape).Idx → EReal)
  (WP : (⟨2, ![256, 256]⟩ : Shape).Idx → EReal) (Bs : (⟨1, ![256]⟩ : Shape).Idx → EReal)
  (b : Fin 4) (r : Fin 28)
  (x0 : Vec Ideal S1x256x8x224 .f32) (x1 x2 x3 x4 : Vec Ideal S256x256 .bf16) (x5 : Vec Ideal S256 .f32)

/-- Head `h` of the body at the lane offset `32·h` is the specification's head `h` of window `nw` of the strip. -/
theorem head_eq_ctx
    (hx0 : ∀ (ch : Fin 256) (hi : Fin 8) (wp : Fin 224),
      x0 (ix4 (0 : Fin 1) ch hi wp) = X (ix4 b ch ⟨8 * r.val + hi.val, by have := r.isLt; have := hi.isLt; omega⟩ wp))
    (hx1 : ∀ (ch o : Fin 256), x1 (ix2 ch o) = W (ix2 ⟨o.val, by have := o.isLt; omega⟩ ch))
    (hx2 : ∀ (ch o : Fin 256), x2 (ix2 ch o) = W (ix2 ⟨256 + o.val, by have := o.isLt; omega⟩ ch))
    (hx3 : ∀ (ch o : Fin 256), x3 (ix2 ch o) = W (ix2 ⟨512 + o.val, by have := o.isLt; omega⟩ ch))
    (h : Fin 8) (off : Nat) (e : off = 32 * h.val) (hs : S28x64x256.Slices ![0, 0, off] S28x64x32)
    (nw : Fin 28) (t : Fin 64) (d : Fin 32) :
    headTerm (F := Ideal) off hs (k0_pay2 x0 x1) (k0_pay2 x0 x2) (k0_pay2 x0 x3) (ix3 nw t d) = ctx X W b r nw h t d := by
  subst e
  have hh := h.isLt
  refine (headTerm_apply (32 * h.val) (by omega) hs _ _ _ nw t d).trans ?_
  unfold ctx
  refine attn_congr (fun t' d' => ?_) (fun t' d' => ?_) (fun t' d' => ?_) t d
  · exact proj_eq_part X W b r 0 x0 x1 hx0 (fun ch o => (hx1 ch o).trans
      (congrArg (fun i => W (ix2 i ch)) (Fin.ext (by show o.val = 256 * 0 + o.val; omega)))) nw t' h d'
  · exact proj_eq_part X W b r 1 x0 x2 hx0 (fun ch o => (hx2 ch o).trans
      (congrArg (fun i => W (ix2 i ch)) (Fin.ext (by show 256 + o.val = 256 * 1 + o.val; omega)))) nw t' h d'
  · exact proj_eq_part X W b r 2 x0 x3 hx0 (fun ch o => (hx3 ch o).trans
      (congrArg (fun i => W (ix2 i ch)) (Fin.ext (by show 512 + o.val = 256 * 2 + o.val; omega)))) nw t' h d'

/-- THE BODY AT AN INDEX: the stored strip's pixel `(hi, 8·nw + wj)` at channel `ch` is the specification's output of
    window `(b, r, nw)` at token `8·hi + wj`. -/
theorem body_apply
    (hx0 : ∀ (ch : Fin 256) (hi : Fin 8) (wp : Fin 224),
      x0 (ix4 (0 : Fin 1) ch hi wp) = X (ix4 b ch ⟨8 * r.val + hi.val, by have := r.isLt; have := hi.isLt; omega⟩ wp))
    (hx1 : ∀ (ch o : Fin 256), x1 (ix2 ch o) = W (ix2 ⟨o.val, by have := o.isLt; omega⟩ ch))
    (hx2 : ∀ (ch o : Fin 256), x2 (ix2 ch o) = W (ix2 ⟨256 + o.val, by have := o.isLt; omega⟩ ch))
    (hx3 : ∀ (ch o : Fin 256), x3 (ix2 ch o) = W (ix2 ⟨512 + o.val, by have := o.isLt; omega⟩ ch))
    (hx4 : ∀ (c' ch : Fin 256), x4 (ix2 c' ch) = WP (ix2 ch c'))
    (hx5 : ∀ ch : Fin 256, x5 (ix1 ch) = Bs (ix1 ch))
    (ch : Fin 256) (hi : Fin 8) (nw : Fin 28) (wj : Fin 8) :
    bodyTerm (F := Ideal) x0 x1 x2 x3 x4 x5 (ix4 (0 : Fin 1) ch hi ⟨8 * nw.val + wj.val, by have := nw.isLt; have := wj.isLt; omega⟩)
      = outp X W WP Bs b r nw ⟨8 * hi.val + wj.val, by have := hi.isLt; have := wj.isLt; omega⟩ ch := by
  rw [bodyTerm_eq]
  refine (strip_apply _ _ _ ch hi nw wj).trans ?_
  unfold outp
  refine congrArg₂ (· + ·) ?_ (hx5 ch)
  refine Finset.sum_congr rfl fun c' _ => ?_
  rw [hx4]
  refine congrArg (· * WP (ix2 ch c')) ?_
  refine (joined_apply _ _ _ _ _ _ _ _ nw _ c').trans ?_
  unfold ctxAll
  have hc' := c'.isLt
  generalize hhd : (⟨c'.val / 32, by omega⟩ : Fin 8) = h
  generalize (⟨c'.val % 32, by omega⟩ : Fin 32) = d
  match h with
  | ⟨0, _⟩ => exact head_eq_ctx X W b r x0 x1 x2 x3 hx0 hx1 hx2 hx3 ⟨0, by omega⟩ 0 rfl _ nw _ d
  | ⟨1, _⟩ => exact head_eq_ctx X W b r x0 x1 x2 x3 hx0 hx1 hx2 hx3 ⟨1, by omega⟩ 32 rfl _ nw _ d
  | ⟨2, _⟩ => exact head_eq_ctx X W b r x0 x1 x2 x3 hx0 hx1 hx2 hx3 ⟨2, by omega⟩ 64 rfl _ nw _ d
  | ⟨3, _⟩ => exact head_eq_ctx X W b r x0 x1 x2 x3 hx0 hx1 hx2 hx3 ⟨3, by omega⟩ 96 rfl _ nw _ d
  | ⟨4, _⟩ => exact head_eq_ctx X W b r x0 x1 x2 x3 hx0 hx1 hx2 hx3 ⟨4, by omega⟩ 128 rfl _ nw _ d
  | ⟨5, _⟩ => exact head_eq_ctx X W b r x0 x1 x2 x3 hx0 hx1 hx2 hx3 ⟨5, by omega⟩ 160 rfl _ nw _ d
  | ⟨6, _⟩ => exact head_eq_ctx X W b r x0 x1 x2 x3 hx0 hx1 hx2 hx3 ⟨6, by omega⟩ 192 rfl _ nw _ d
  | ⟨7, _⟩ => exact head_eq_ctx X W b r x0 x1 x2 x3 hx0 hx1 hx2 hx3 ⟨7, by omega⟩ 224 rfl _ nw _ d

end Point

end Cert.WinAttn.Ker

end
-- ==== Proof.KerArray.lean ====
/-
  From the strips to the whole result: what the window-attention kernel leaves in its output array.

  Each grid point writes back one strip of the specification's result, computed from its image block and the whole
  weights; the strips tile the result; so after the run the output array is the specification's function of the
  four argument arrays, and the arguments are as launched.
-/
import proofs.«143008_j49546742726934_2_alg».proof.Proof.KerArrayBlk
import proofs.«143008_j49546742726934_2_alg».proof.Proof.KerArrayHost
import proofs.«143008_j49546742726934_2_alg».proof.Proof.KerBody

noncomputable section

namespace Cert.WinAttn.Ker

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets4 : (![0, 0, 0, 0] : Fin 4 → Nat) = fun _ => 0 := funext fun a => by fin_cases a <;> rfl
theorem zero_offsets2 : (![0, 0] : Fin 2 → Nat) = fun _ => 0 := funext fun a => by fin_cases a <;> rfl
theorem zero_offsets1 : (![0] : Fin 1 → Nat) = fun _ => 0 := funext fun a => by fin_cases a <;> rfl

/-- A column of the 224 is column `wj` of window `nw`. -/
theorem col_split (wp : Fin 224) :
    ∃ (nw : Fin 28) (wj : Fin 8), wp = ⟨8 * nw.val + wj.val, by have := nw.isLt; have := wj.isLt; omega⟩ :=
  ⟨⟨wp.val / 8, by have := wp.isLt; omega⟩, ⟨wp.val % 8, Nat.mod_lt _ (by decide)⟩,
    Fin.ext (by show wp.val = 8 * (wp.val / 8) + wp.val % 8; omega)⟩

/-- The strip a point computes, at channel `ch`, row `hi` of the strip and column `8·nw + wj`: the specification's
    result at the pixel of batch entry `b`, row `8r + hi`. -/
theorem strip_at (c : Dev nD) (t : Fin cfg0.N) (ch : Fin 256) (hi : Fin 8) (nw : Fin 28) (wj : Fin 8) :
    bodyTerm (F := Ideal) (iblk m c 0 t) (iblk m c 1 t) (iblk m c 2 t) (iblk m c 3 t) (iblk m c 4 t) (iblk m c 5 t)
        (ix4 (0 : Fin 1) ch hi ⟨8 * nw.val + wj.val, by have := nw.isLt; have := wj.isLt; omega⟩)
      = G (V m c main_arg0) (V m c main_arg1) (V m c main_arg2) (V m c main_arg3)
          (ix4 (ptB t) ch ⟨8 * (ptR t).val + hi.val, by have := (ptR t).isLt; have := hi.isLt; omega⟩
            ⟨8 * nw.val + wj.val, by have := nw.isLt; have := wj.isLt; omega⟩) := by
  refine (body_apply (V m c main_arg0) (V m c main_arg1) (V m c main_arg2) (V m c main_arg3) (ptB t) (ptR t)
    (iblk m c 0 t) (iblk m c 1 t) (iblk m c 2 t) (iblk m c 3 t) (iblk m c 4 t) (iblk m c 5 t)
    (iblk0_apply m c t)
    (fun ch o => (iblk1_apply m c t ch o).trans (V_main_v2_apply m c ch o))
    (fun ch o => (iblk2_apply m c t ch o).trans (V_main_v5_apply m c ch o))
    (fun ch o => (iblk3_apply m c t ch o).trans (V_main_v8_apply m c ch o))
    (fun c' ch => (iblk4_apply m c t c' ch).trans (V_main_v10_apply m c c' ch))
    (iblk5_apply m c t) ch hi nw wj).trans ?_
  exact (G_apply (V m c main_arg0) (V m c main_arg1) (V m c main_arg2) (V m c main_arg3) (ptB t) ch (ptR t) nw hi wj
    ⟨8 * (ptR t).val + hi.val, by have := (ptR t).isLt; have := hi.isLt; omega⟩
    ⟨8 * nw.val + wj.val, by have := nw.isLt; have := wj.isLt; omega⟩ rfl rfl).symm

/-- What point `t` writes back is block `t` of the specification's result of the argument arrays as the region finds them. -/
theorem flushed_eq (c : Dev nD) (t : Fin cfg0.N) :
    (dats m 0 c).flushed 6 t
      = ((cfg0.win 6).blk t).view.read (Elt Ideal) (G (V m c main_arg0) (V m c main_arg1) (V m c main_arg2) (V m c main_arg3)) := by
  rw [Value.flushed6, out0_6_eq, View.canon_unit_zero zero_offsets4]
  simp only [View.ld_unit_zero (S := S1x256x8x224) zero_offsets4, View.ld_unit_zero (S := S256x256) zero_offsets2,
    View.ld_unit_zero (S := S256) zero_offsets1]
  funext j
  obtain ⟨z, ch, hi, wp, rfl⟩ : ∃ (z : Fin 1) (ch : Fin 256) (hi : Fin 8) (wp : Fin 224), j = ix4 z ch hi wp :=
    ⟨j 0, j 1, j 2, j 3, eq_ix4 j⟩
  obtain rfl : z = 0 := Subsingleton.elim _ _
  obtain ⟨nw, wj, rfl⟩ := col_split wp
  show bodyTerm (F := Ideal) (iblk m c 0 t) (iblk m c 1 t) (iblk m c 2 t) (iblk m c 3 t) (iblk m c 4 t) (iblk m c 5 t)
        (ix4 (0 : Fin 1) ch hi ⟨8 * nw.val + wj.val, by have := nw.isLt; have := wj.isLt; omega⟩)
      = G (V m c main_arg0) (V m c main_arg1) (V m c main_arg2) (V m c main_arg3)
          (((cfg0.win 6).blk t).view.emb (ix4 (0 : Fin 1) ch hi ⟨8 * nw.val + wj.val, by have := nw.isLt; have := wj.isLt; omega⟩))
  rw [oblk_emb]
  exact strip_at m c t ch hi nw wj

/-- The output array after the run is the specification's result of the argument arrays as launched. -/
theorem final (c : Dev nD) :
    (dats m 0 c).arrAt 6 cfg0.N
      = G (m ((c : Thread nD τ).loc main_arg0)) (m ((c : Thread nD τ).loc main_arg1))
          (m ((c : Thread nD τ).loc main_arg2)) (m ((c : Thread nD τ).loc main_arg3)) := by
  have h := (dats m 0 c).arrAt_eq_of_cover 6
    (G (V m c main_arg0) (V m c main_arg1) (V m c main_arg2) (V m c main_arg3)) (fun t _ => flushed_eq m c t) cover
  rw [V_main_arg0, V_main_arg1, V_main_arg2, V_main_arg3] at h
  exact h

/-- The kernel's run: every weakly fair execution ends with the output array at the specification's result of the
    arguments, and the arguments unchanged. -/
theorem kernel_run : θ_run defs (onTc (τ := τ) (main (F := Ideal))) ⟨m, fun _ => 0, ρ⟩ fun r => ∀ c : Dev nD,
      r.2.mem ((c : Thread nD τ).loc main_v11)
        = G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.WinAttn.Ker

end
-- ==== Proof.lean ====
/-
  The kernel and its reference compute the same window attention, as extended reals.

  Both programs cut the image [4, 256, 224, 224] into 8 × 8 windows, project every pixel of a window to queries, keys
  and values with the rows of w_qkv, form for each of the 8 heads the scaled scores of the window's 64 tokens against
  each other, normalise each row by subtracting its maximum, exponentiating and dividing by the row's sum, weight the
  values with the result, join the heads, project with w_proj, add the bias, and put the tokens back at their pixels.
  The reference does this for all 3136 windows at once through rank-6 reshapes and transposes; the kernel does it one
  strip of 8 image rows (28 windows) per grid point, with the weights transposed on the host beforehand. The
  specification `Cert.WinAttn.G` (Proof/Spec.lean) writes the common value index by index. The reference's result is
  `G` of the arguments (`Cert.WinAttn.Ref.ref_eq_G`: the reference's operations read one at a time at window
  coordinates). The kernel's output array after its run is `G` of the arguments (`Cert.WinAttn.Ker.kernel_run`: what
  each grid point stores is the block of `G` at that strip, `Cert.WinAttn.Ker.body_apply`, and the 112 blocks cover
  the array). Every sum is over the same index set with the same grouping on both sides, the scale and the floor of
  the maximum are the same words on both sides, and a change of float format is the identity on the extended reals,
  so no algebraic law and no finiteness of the inputs is needed: the precondition is not opened.
  The frames of the two kernel programs are the generated ones; the reference's frame is its generated run with the
  result dropped; the idealization rewrote nothing, so `preserves` is `True`.
-/
import proofs.«143008_j49546742726934_2_alg».proof.Defs
import proofs.«143008_j49546742726934_2_alg».proof.Proof.Gen.Kernel
import proofs.«143008_j49546742726934_2_alg».proof.Proof.Gen.Kernel.Frame
import proofs.«143008_j49546742726934_2_alg».proof.Proof.Gen.KernelIdeal
import proofs.«143008_j49546742726934_2_alg».proof.Proof.Gen.KernelIdeal.Frame
import proofs.«143008_j49546742726934_2_alg».proof.Proof.Gen.KernelIdeal.Value
import proofs.«143008_j49546742726934_2_alg».proof.Proof.Gen.ReferenceIdeal
import proofs.«143008_j49546742726934_2_alg».proof.Proof.Gen.ReferenceIdeal.Run
import proofs.«143008_j49546742726934_2_alg».proof.Proof.Gen.ReferenceIdeal.Read
import proofs.«143008_j49546742726934_2_alg».proof.Proof.Gen.Pre_finite_inputs
import proofs.«143008_j49546742726934_2_alg».proof.Proof.Spec
import proofs.«143008_j49546742726934_2_alg».proof.Proof.RefOutput
import proofs.«143008_j49546742726934_2_alg».proof.Proof.KerArray

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading at the extended reals. -/
theorem preserves : Cert.preserves_Kernel_KernelIdeal := trivial

/-- From memories that agree on the four arguments both programs end with the result array at `G` of the arguments. -/
theorem algebraic : Cert.algebraic_KernelIdeal_ReferenceIdeal := by
  intro m ρ m' ρ' _ hagree
  refine ⟨_, Cert.WinAttn.Ker.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.WinAttn.Ref.ref_eq_G, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
